-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S3x128x128 .f32) (main_arg6 : FVec F S128 .f32) (main_arg7 : FVec F S3x128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x64 .f32 := Host.absf main_arg7
  let main_cst_10 : FVec F S_ .f32 := constant S_ .f32 0x7F800000#32
  let main_v30 : FVec F S3x128x64 .f32 := broadcastInDim S3x128x64 ![] bcast_S_S3x128x64 main_cst_10
  let main_v31 : IVec S3x128x64 1 := cmpf .olt main_v29 main_v30
  let main_c_11 : IVec S_ 1 := constantI S_ 1 1#1
  let main_v32 : IVec S_ 1 := (fun x v => Host.reduce IntOp.andi x v reducesTo_S3x128x64_S_d0_1_2 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S1600000 .f32) (main_arg3 : FVec F S3x128x128 .f32) (main_arg4 : FVec F S128 .f32) (main_arg5 : FVec F S3x128x128 .f32) (main_arg6 : FVec F S128 .f32) (main_arg7 : FVec F S3x128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x128x128 : Shape := ⟨3, ![1, 128, 128]⟩
abbrev S128x128 : Shape := ⟨2, ![128, 128]⟩
abbrev S50000x64 : Shape := ⟨2, ![50000, 64]⟩

abbrev nBuf : Space → Nat
  | .hbm => 162
  | .vmem => 30
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S3x128x128, .f32⟩
  | 4 => ⟨S128, .f32⟩
  | 5 => ⟨S3x128x128, .f32⟩
  | 6 => ⟨S128, .f32⟩
  | 7 => ⟨S3x128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S50000, .f32⟩
  | 19 => ⟨S1600000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S50000x128, .f32⟩
  | 67 => ⟨S1600000x1, .i32⟩
  | 68 => ⟨S50000x128, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S1600000x128, .f32⟩
  | 80 => ⟨S1600000x128, .f32⟩
  | 81 => ⟨S_, .f32⟩
  | 82 => ⟨S50000x128, .f32⟩
  | 83 => ⟨S1600000x1, .i32⟩
  | 84 => ⟨S50000x128, .f32⟩
  | 85 => ⟨S1x128, .f32⟩
  | 86 => ⟨S50000x128, .f32⟩
  | 87 => ⟨S1600000x1, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S1600000x128, .f32⟩
  | 98 => ⟨S1600000x128, .f32⟩
  | 99 => ⟨S_, .f32⟩
  | 100 => ⟨S50000x128, .f32⟩
  | 101 => ⟨S1600000x1, .i32⟩
  | 102 => ⟨S50000x128, .f32⟩
  | 103 => ⟨S1600000x1, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x128, .f32⟩
  | 114 => ⟨S1600000x128, .f32⟩
  | 115 => ⟨S_, .f32⟩
  | 116 => ⟨S50000x128, .f32⟩
  | 117 => ⟨S1600000x1, .i32⟩
  | 118 => ⟨S50000x128, .f32⟩
  | 119 => ⟨S1x128, .f32⟩
  | 120 => ⟨S50000x128, .f32⟩
  | 121 => ⟨S_, .i32⟩
  | 122 => ⟨S_, .f32⟩
  | 123 => ⟨S3x128x128, .f32⟩
  | 124 => ⟨S_, .i32⟩
  | 125 => ⟨S_, .f32⟩
  | 126 => ⟨S128, .f32⟩
  | 127 => ⟨S1600000x1, .f32⟩
  | _ => ⟨S50000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S1600000x128, .f32⟩
  | 10 => ⟨S1600000x128, .f32⟩
  | 11 => ⟨S_, .f32⟩
  | 12 => ⟨S50000x128, .f32⟩
  | 13 => ⟨S1600000x1, .i32⟩
  | 14 => ⟨S50000x128, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x128, .f32⟩
  | 26 => ⟨S1600000x128, .f32⟩
  | 27 => ⟨S_, .f32⟩
  | 28 => ⟨S50000x128, .f32⟩
  | 29 => ⟨S1600000x1, .i32⟩
  | 30 => ⟨S50000x128, .f32⟩
  | 31 => ⟨S1x128, .f32⟩
  | 32 => ⟨S50000x128, .f32⟩
  | 33 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S3x128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S3x128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S3x128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_c_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_18 : Ref sig .tc := ⟨.hbm, 121, rfl⟩
abbrev main_call1_v0 : Ref sig .tc := ⟨.hbm, 122, rfl⟩
abbrev main_v90 : Ref sig .tc := ⟨.hbm, 123, rfl⟩
abbrev main_c_19 : Ref sig .tc := ⟨.hbm, 124, rfl⟩
abbrev main_call2_v0 : Ref sig .tc := ⟨.hbm, 125, rfl⟩
abbrev main_v91 : Ref sig .tc := ⟨.hbm, 126, rfl⟩
abbrev main_v92 : Ref sig .tc := ⟨.hbm, 127, rfl⟩
abbrev main_c_20 : Ref sig .tc := ⟨.hbm, 128, rfl⟩
abbrev main_v93 : Ref sig .tc := ⟨.hbm, 129, rfl⟩
abbrev main_v94 : Ref sig .tc := ⟨.hbm, 130, rfl⟩
abbrev main_c_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_23 : Ref sig .tc := ⟨.hbm, 144, rfl⟩
abbrev main_v106 : Ref sig .tc := ⟨.hbm, 145, rfl⟩
abbrev main_v107 : Ref sig .tc := ⟨.hbm, 146, rfl⟩
abbrev main_c_24 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_25 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S3x128x64_S3x128x128_000_000_0640 : S3x128x64.Pads (![0, 0, 0] : Fin 3 → Nat) ![0, 0, 64] ![0, 0, 0] S3x128x128
  h_S_ : 0 < S_.numel
  pads_S64_S128_0640 : S64.Pads (![0] : Fin 1 → Nat) ![64] ![0] S128
  slices_S50000x128_S50000x64_0_0 : S50000x128.Slices ![0, 0] S50000x64
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x128.size a ≤ S3x128x128.size a
  hwx1_3 : ∀ i : grid1.Coords, EltTy.bits .f32 = 32 ∨ (Rect.block (s := S3x128x128) S3x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128x128.size a ≤ S3x128x128.size a
  hwx2_3 : ∀ i : grid2.Coords, EltTy.bits .f32 = 32 ∨ (Rect.block (s := S3x128x128) S3x128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v60) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v61) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v61) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v87) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v88) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v89) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v104) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v117) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v90) S3x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v118) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v119) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S1x128 : Shape := ⟨2, ![1, 128]⟩
abbrev S1x128x64 : Shape := ⟨3, ![1, 128, 64]⟩
abbrev S128x64 : Shape := ⟨2, ![128, 64]⟩
abbrev S50000x64 : Shape := ⟨2, ![50000, 64]⟩
abbrev S1x64 : Shape := ⟨2, ![1, 64]⟩

abbrev nBuf : Space → Nat
  | .hbm => 227
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S3x128x128, .f32⟩
  | 4 => ⟨S128, .f32⟩
  | 5 => ⟨S3x128x128, .f32⟩
  | 6 => ⟨S128, .f32⟩
  | 7 => ⟨S3x128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S50000, .f32⟩
  | 19 => ⟨S1600000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1x128x128, .f32⟩
  | 54 => ⟨S128x128, .f32⟩
  | 55 => ⟨S50000x128, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S1600000x128, .f32⟩
  | 67 => ⟨S1600000x128, .f32⟩
  | 68 => ⟨S_, .f32⟩
  | 69 => ⟨S50000x128, .f32⟩
  | 70 => ⟨S1600000x1, .i32⟩
  | 71 => ⟨S50000x128, .f32⟩
  | 72 => ⟨S1x128x128, .f32⟩
  | 73 => ⟨S128x128, .f32⟩
  | 74 => ⟨S50000x128, .f32⟩
  | 75 => ⟨S50000x128, .f32⟩
  | 76 => ⟨S1600000x1, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S1600000x128, .f32⟩
  | 87 => ⟨S1600000x128, .f32⟩
  | 88 => ⟨S_, .f32⟩
  | 89 => ⟨S50000x128, .f32⟩
  | 90 => ⟨S1600000x1, .i32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x128x128, .f32⟩
  | 112 => ⟨S128x128, .f32⟩
  | 113 => ⟨S50000x128, .f32⟩
  | 114 => ⟨S1600000x1, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S1600000x128, .f32⟩
  | 125 => ⟨S1600000x128, .f32⟩
  | 126 => ⟨S_, .f32⟩
  | 127 => ⟨S50000x128, .f32⟩
  | _ => ⟨S50000x128, .f32⟩

abbrev hbmTy0_1 (i : Nat) : BufTy := match i % 128 with
  | 0 => ⟨S1600000x1, .i32⟩
  | 1 => ⟨S50000x128, .f32⟩
  | 2 => ⟨S1x128x128, .f32⟩
  | 3 => ⟨S128x128, .f32⟩
  | 4 => ⟨S50000x128, .f32⟩
  | 5 => ⟨S50000x128, .f32⟩
  | 6 => ⟨S1600000x1, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S1600000x128, .f32⟩
  | 17 => ⟨S1600000x128, .f32⟩
  | 18 => ⟨S_, .f32⟩
  | 19 => ⟨S50000x128, .f32⟩
  | 20 => ⟨S1600000x1, .i32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S1x128x128, .f32⟩
  | 27 => ⟨S128x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S1x128x64, .f32⟩
  | 42 => ⟨S128x64, .f32⟩
  | 43 => ⟨S50000x64, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x128, .f32⟩
  | 55 => ⟨S1600000x128, .f32⟩
  | 56 => ⟨S_, .f32⟩
  | 57 => ⟨S50000x128, .f32⟩
  | 58 => ⟨S1600000x1, .i32⟩
  | 59 => ⟨S50000x128, .f32⟩
  | 60 => ⟨S1x128x64, .f32⟩
  | 61 => ⟨S128x64, .f32⟩
  | 62 => ⟨S50000x64, .f32⟩
  | 63 => ⟨S50000x64, .f32⟩
  | 64 => ⟨S1600000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S1600000x128, .f32⟩
  | 75 => ⟨S1600000x128, .f32⟩
  | 76 => ⟨S_, .f32⟩
  | 77 => ⟨S50000x128, .f32⟩
  | 78 => ⟨S1600000x1, .i32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S1x128x64, .f32⟩
  | 85 => ⟨S128x64, .f32⟩
  | 86 => ⟨S50000x64, .f32⟩
  | 87 => ⟨S50000x64, .f32⟩
  | 88 => ⟨S1x64, .f32⟩
  | 89 => ⟨S50000x64, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S_, .f32⟩
  | 97 => ⟨S50000x64, .f32⟩
  | 98 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_15 : Ref sig .tc := ⟨.hbm, 115, rfl⟩
abbrev main_v87 : Ref sig .tc := ⟨.hbm, 116, rfl⟩
abbrev main_v88 : Ref sig .tc := ⟨.hbm, 117, rfl⟩
abbrev main_c_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_18 : Ref sig .tc := ⟨.hbm, 135, rfl⟩
abbrev main_v104 : Ref sig .tc := ⟨.hbm, 136, rfl⟩
abbrev main_v105 : Ref sig .tc := ⟨.hbm, 137, rfl⟩
abbrev main_c_19 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_20 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_21 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_22 : Ref sig .tc := ⟨.hbm, 163, rfl⟩
abbrev main_v128 : Ref sig .tc := ⟨.hbm, 164, rfl⟩
abbrev main_v129 : Ref sig .tc := ⟨.hbm, 165, rfl⟩
abbrev main_cst_23 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_c_24 : Ref sig .tc := ⟨.hbm, 173, rfl⟩
abbrev main_v136 : Ref sig .tc := ⟨.hbm, 174, rfl⟩
abbrev main_v137 : Ref sig .tc := ⟨.hbm, 175, rfl⟩
abbrev main_c_25 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_26 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_c_27 : Ref sig .tc := ⟨.hbm, 193, rfl⟩
abbrev main_v153 : Ref sig .tc := ⟨.hbm, 194, rfl⟩
abbrev main_v154 : Ref sig .tc := ⟨.hbm, 195, rfl⟩
abbrev main_c_28 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_29 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_cst_30 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_31 : Ref sig .tc := ⟨.hbm, 221, rfl⟩
abbrev main_v177 : Ref sig .tc := ⟨.hbm, 222, rfl⟩
abbrev main_v178 : Ref sig .tc := ⟨.hbm, 223, rfl⟩
abbrev main_cst_32 : Ref sig .tc := ⟨.hbm, 224, rfl⟩
abbrev main_v179 : Ref sig .tc := ⟨.hbm, 225, rfl⟩
abbrev main_v180 : Ref sig .tc := ⟨.hbm, 226, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run with its RESULT named.

  @main is thirteen segments: stretches of host operations and three kernel regions.  The contents of the device's
  buffers at each segment boundary are a fold from the launch memory: a host stretch leaves its operations' results,
  a region leaves its windows' arrays at what its grid points wrote back and every other buffer as it found it.  Every
  weakly fair execution terminates with every buffer at the last boundary's contents; this module reads, beside the
  nine argument arrays (which end as launched), the result array at those contents.
-/
import proofs.«133667_j64707977281780_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result array at the last boundary's contents and the argument arrays as launched. -/
theorem run_result : θ_run defs (onTc (τ := τ) (main (F := F))) ⟨m, fun _ => 0, ρ⟩ (fun r => ∀ c : Dev nD,
      r.2.mem ((c.tc : Thread nD τ).loc main_v120) = W13 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v120 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Run

end
-- ==== Proof.KBlockOps.lean ====
/-
  The kernel body's three non-pointwise operations, read at coordinates, on the extended reals.

  A grid point works on a block of 5000 node rows.  Its matrix product of a [5000,128] block with a [128,128] matrix
  into a zero accumulator is, at row `p` and column `q`, the plain sum over `k` of block(p,k)·matrix(k,q); the
  [128,128] matrix is one [1,128,128] slice of the weight stack with its unit axis dropped, so its entry (k,q) is
  the slice's entry (0,k,q); and the bias, held as a [1,128] row, is repeated down the 5000 rows, so the broadcast's
  entry (p,q) is the row's entry (0,q).
-/
import proofs.«133667_j64707977281780_2_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.BlockOps

open Cert.KernelIdeal Cert.KernelIdeal.Gen Idealize.ShloMosaic Idealize.ShloMosaic.ValueIdx

/-! ## The matrix product's operand indices -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q

theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q

theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at row `p` and column `q`: the sum over the contracted axis. -/
theorem matmul_zero_apply {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The weight slice with its unit axis dropped -/

theorem dropUnit_apply {α : Type} (w : S1x128x128.Idx → α) (k q : Fin 128) :
    shapeCast S128x128 w shapeCasts_S1x128x128_S128x128 (ix2 k q) = w (ix3 (0 : Fin 1) k q) :=
  shapeCast_apply w shapeCasts_S1x128x128_S128x128 (ix2 k q) (ix3 (0 : Fin 1) k q)
    (by rewrite [Shape.rowMajor_val_three, Shape.rowMajor_val_two]
        show (0 * 128 + k.val) * 128 + q.val = k.val * 128 + q.val
        omega)

/-! ## The bias row repeated down the block -/

theorem biasRows_apply {α : Type} (b : S1x128.Idx → α) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

end Cert.KernelIdeal.BlockOps

end
-- ==== Proof.ChebEntry.lean ====
/-
  One entry of a Chebyshev graph-convolution layer with three terms, on the extended reals.

  A layer maps node features `x` (one row of 128 entries per node) to
      σ( x·W₀ + (L̂x)·W₁ + (2·L̂(L̂x) − x)·W₂ + b ),
  where `L̂` is the scaled graph Laplacian, `W₀ W₁ W₂` are 128×d matrices, `b` a vector of `d` entries and `σ` the
  logistic function.  Entry `j` of a node's output row depends on that node's rows of `x`, `L̂x` and `L̂(L̂x)` only:
  it is `entry` below of those three rows.  The sums are grouped as written — (first + second) + third, then the bias —
  and no law of arithmetic is used anywhere, so nothing here asks the entries to be finite.

  `σ z` is `1 / (1 + e^(−z))` with the conventions of the extended reals' division and exponential at the
  infinities; a program that spells the quotient out with the 32-bit pattern of 1.0 for each `1` computes the same
  function (`logistic_spelled`).
-/
import Idealize.ShloMosaic.PureOps.Ideal
import Idealize.ShloMosaic.PureOps.Ideal.Laws
import Idealize.ShloMosaic.Lib.ValueIdx

noncomputable section

open scoped BigOperators

namespace Cert.Cheb

open Idealize.ShloMosaic

/-- The 32-bit pattern of 2.0, as the extended real it denotes.  Both programs scale by this same pattern, so it is
    never evaluated. -/
abbrev two : EReal := Ideal.ofBits .f32 0x40000000#32

/-- The argument of the logistic function at output column `j`: from a node's row `xr` of the layer's input, its row
    `tr` of `L̂x` and its row `sr` of `L̂(L̂x)`, the three weight matrices and the bias. -/
def pre {d : Nat} (xr tr sr : Fin 128 → EReal) (w0 w1 w2 : Fin 128 → Fin d → EReal) (b : Fin d → EReal) (j : Fin d) : EReal :=
  ((∑ k : Fin 128, xr k * w0 k j) + (∑ k : Fin 128, tr k * w1 k j)) + (∑ k : Fin 128, (two * sr k - xr k) * w2 k j) + b j

/-- One entry of the layer's output. -/
def entry {d : Nat} (xr tr sr : Fin 128 → EReal) (w0 w1 w2 : Fin 128 → Fin d → EReal) (b : Fin d → EReal) (j : Fin d) : EReal :=
  Ideal.logistic (pre xr tr sr w0 w1 w2 b j)

/-- An entry depends on its three rows, on column `j` of each weight matrix and on entry `j` of the bias, and on nothing
    else: two entries whose data agree there are equal — whatever the widths `d`, `d'` of the two layers. -/
theorem entry_congr {d d' : Nat} {xr tr sr xr' tr' sr' : Fin 128 → EReal}
    {w0 w1 w2 : Fin 128 → Fin d → EReal} {w0' w1' w2' : Fin 128 → Fin d' → EReal} {b : Fin d → EReal} {b' : Fin d' → EReal}
    {j : Fin d} {j' : Fin d'}
    (hx : ∀ k, xr k = xr' k) (ht : ∀ k, tr k = tr' k) (hs : ∀ k, sr k = sr' k)
    (h0 : ∀ k, w0 k j = w0' k j') (h1 : ∀ k, w1 k j = w1' k j') (h2 : ∀ k, w2 k j = w2' k j') (hb : b j = b' j') :
    entry xr tr sr w0 w1 w2 b j = entry xr' tr' sr' w0' w1' w2' b' j' := by
  unfold entry pre
  simp only [hx, ht, hs, h0, h1, h2, hb]

/-- A whole layer: the array of entries, one row per node.  `X`, `T`, `S` are the layer's input, L̂ applied to it once
    and twice; `W` is the stack of the three weight matrices. -/
def layer {n d : Nat} (X T S : (⟨2, ![n, 128]⟩ : Shape).Idx → EReal) (W : (⟨3, ![3, 128, d]⟩ : Shape).Idx → EReal)
    (b : Fin d → EReal) : (⟨2, ![n, d]⟩ : Shape).Idx → EReal :=
  fun i => entry (fun k => X (ValueIdx.ix2 (i 0) k)) (fun k => T (ValueIdx.ix2 (i 0) k)) (fun k => S (ValueIdx.ix2 (i 0) k))
    (fun k j => W (ValueIdx.ix3 (0 : Fin 3) k j)) (fun k j => W (ValueIdx.ix3 (1 : Fin 3) k j)) (fun k j => W (ValueIdx.ix3 (2 : Fin 3) k j))
    b (i 1)

/-- The 32-bit pattern of 1.0 denotes 1. -/
theorem ofBits_one : Ideal.ofBits .f32 0x3F800000#32 = (1 : EReal) := by
  simp [Ideal.ofBits, Ideal.ieee, -EReal.coe_mul]; norm_num

/-- The logistic function spelled as a quotient over the pattern of 1.0 is the logistic function. -/
theorem logistic_spelled (z : EReal) :
    Ideal.div (Ideal.ofBits .f32 0x3F800000#32) (Ideal.ofBits .f32 0x3F800000#32 + Ideal.exp (-z)) = Ideal.logistic z := by
  rw [ofBits_one]; rfl

end Cert.Cheb

end
-- ==== Proof.KPayload.lean ====
/-
  What a grid point stores, entry by entry: the layer's entry function of the point's blocks.

  The body of each of the three kernels computes, from its blocks `x`, `t`, `s` of 5000 node rows (the layer's
  input, L̂ applied once, L̂ applied twice), the whole weight stack and the bias row, the value it stores.  At row `p`
  and column `q` that value is `Cheb.entry` of row `p` of the three blocks: the conversions to the narrower float
  format are the identity on the extended reals, the casts to the same shape are the identity, the three matrix
  products into zero are plain sums over the 128 input features, and `2·s − x` is formed before the third product.
  The first kernel's text differs from the other two only by one cast to the same shape.
-/
import proofs.«133667_j64707977281780_2_alg».proof.Proof.Gen.KernelIdeal.Skeleton
import proofs.«133667_j64707977281780_2_alg».proof.Proof.KBlockOps
import proofs.«133667_j64707977281780_2_alg».proof.Proof.ChebEntry

noncomputable section

open scoped BigOperators

namespace Cert.KernelIdeal.Payload

open Cert.KernelIdeal Cert.KernelIdeal.Gen Cert.KernelIdeal.BlockOps Idealize.ShloMosaic Idealize.ShloMosaic.ValueIdx

/-- Row `p` of a block of node rows. -/
abbrev row (v : Vec Ideal S5000x128 .f32) (p : Fin 5000) : Fin 128 → EReal := fun k => v (ix2 p k)
/-- A [1,128,128] slice of the weight stack as a 128×128 matrix. -/
abbrev mat (w : Vec Ideal S1x128x128 .f32) : Fin 128 → Fin 128 → EReal := fun k j => w (ix3 (0 : Fin 1) k j)
/-- The [1,128] bias row as a vector. -/
abbrev bias (b : Vec Ideal S1x128 .f32) : Fin 128 → EReal := fun j => b (ix2 (0 : Fin 1) j)

theorem pay0_apply (v0 v1 v3 : Vec Ideal S5000x128 .f32) (v11 v14 v17 : Vec Ideal S1x128x128 .f32)
    (v25 : Vec Ideal S1x128 .f32) (p : Fin 5000) (q : Fin 128) :
    k0_pay1 (F := Ideal) v0 v1 v3 v11 v14 v17 v25 (ix2 p q)
      = Cheb.entry (row v0 p) (row v1 p) (row v3 p) (mat v11) (mat v14) (mat v17) (bias v25) q := by
  unfold k0_pay1 Cheb.entry Cheb.pre
  refine congrArg Ideal.logistic ?_
  refine congrArg₂ (· + ·) (congrArg₂ (· + ·) (congrArg₂ (· + ·) ?_ ?_) ?_) ?_
  · exact (matmul_zero_apply _ _ p q).trans (Finset.sum_congr rfl fun k _ =>
      congrArg₂ (· * ·) rfl (dropUnit_apply v11 k q))
  · exact (matmul_zero_apply _ _ p q).trans (Finset.sum_congr rfl fun k _ =>
      congrArg₂ (· * ·) (congrFun (shapeCast_self v1 _) (ix2 p k)) (dropUnit_apply v14 k q))
  · exact (matmul_zero_apply _ _ p q).trans (Finset.sum_congr rfl fun k _ =>
      congrArg₂ (· * ·) (congrArg₂ (· - ·) (congrArg (Cheb.two * ·) (congrFun (shapeCast_self v3 _) (ix2 p k))) rfl) (dropUnit_apply v17 k q))
  · exact (biasRows_apply _ p q).trans (congrFun (shapeCast_self v25 _) _)

theorem pay1_apply (v0 v2 v4 : Vec Ideal S5000x128 .f32) (v12 v15 v18 : Vec Ideal S1x128x128 .f32)
    (v26 : Vec Ideal S1x128 .f32) (p : Fin 5000) (q : Fin 128) :
    k1_pay1 (F := Ideal) v0 v2 v4 v12 v15 v18 v26 (ix2 p q)
      = Cheb.entry (row v0 p) (row v2 p) (row v4 p) (mat v12) (mat v15) (mat v18) (bias v26) q := by
  unfold k1_pay1 Cheb.entry Cheb.pre
  refine congrArg Ideal.logistic ?_
  refine congrArg₂ (· + ·) (congrArg₂ (· + ·) (congrArg₂ (· + ·) ?_ ?_) ?_) ?_
  · exact (matmul_zero_apply _ _ p q).trans (Finset.sum_congr rfl fun k _ =>
      congrArg₂ (· * ·) (congrFun (shapeCast_self v0 _) (ix2 p k)) (dropUnit_apply v12 k q))
  · exact (matmul_zero_apply _ _ p q).trans (Finset.sum_congr rfl fun k _ =>
      congrArg₂ (· * ·) (congrFun (shapeCast_self v2 _) (ix2 p k)) (dropUnit_apply v15 k q))
  · exact (matmul_zero_apply _ _ p q).trans (Finset.sum_congr rfl fun k _ =>
      congrArg₂ (· * ·) (congrArg₂ (· - ·) (congrArg (Cheb.two * ·) (congrFun (shapeCast_self v4 _) (ix2 p k))) (congrFun (shapeCast_self v0 _) (ix2 p k))) (dropUnit_apply v18 k q))
  · exact (biasRows_apply _ p q).trans (congrFun (shapeCast_self v26 _) _)

theorem pay2_apply (v0 v2 v4 : Vec Ideal S5000x128 .f32) (v12 v15 v18 : Vec Ideal S1x128x128 .f32)
    (v26 : Vec Ideal S1x128 .f32) (p : Fin 5000) (q : Fin 128) :
    k2_pay1 (F := Ideal) v0 v2 v4 v12 v15 v18 v26 (ix2 p q)
      = Cheb.entry (row v0 p) (row v2 p) (row v4 p) (mat v12) (mat v15) (mat v18) (bias v26) q := by
  unfold k2_pay1 Cheb.entry Cheb.pre
  refine congrArg Ideal.logistic ?_
  refine congrArg₂ (· + ·) (congrArg₂ (· + ·) (congrArg₂ (· + ·) ?_ ?_) ?_) ?_
  · exact (matmul_zero_apply _ _ p q).trans (Finset.sum_congr rfl fun k _ =>
      congrArg₂ (· * ·) (congrFun (shapeCast_self v0 _) (ix2 p k)) (dropUnit_apply v12 k q))
  · exact (matmul_zero_apply _ _ p q).trans (Finset.sum_congr rfl fun k _ =>
      congrArg₂ (· * ·) (congrFun (shapeCast_self v2 _) (ix2 p k)) (dropUnit_apply v15 k q))
  · exact (matmul_zero_apply _ _ p q).trans (Finset.sum_congr rfl fun k _ =>
      congrArg₂ (· * ·) (congrArg₂ (· - ·) (congrArg (Cheb.two * ·) (congrFun (shapeCast_self v4 _) (ix2 p k))) (congrFun (shapeCast_self v0 _) (ix2 p k))) (dropUnit_apply v18 k q))
  · exact (biasRows_apply _ p q).trans (congrFun (shapeCast_self v26 _) _)

end Cert.KernelIdeal.Payload

end
-- ==== Proof.KRegion0.lean ====
/-
  Region 0: the output array after the region is one layer of its input arrays.

  The region's grid has ten points; point `t` works on node rows 5000·t … 5000·t + 4999.  Its three row-blocked
  inputs and its output move together (block `t` of each), the weight stack and the bias row are held whole at every
  point.  So what point `t` writes back is block `t` of `Cheb.layer` of the five input arrays as the region finds
  them; the ten blocks tile the output array (row `r` lies in the block of point `r / 5000`), hence the whole array
  ends at that layer.
-/
import proofs.«133667_j64707977281780_2_alg».proof.Proof.Gen.KernelIdeal.Frame
import proofs.«133667_j64707977281780_2_alg».proof.Proof.KPayload

set_option maxRecDepth 16384

noncomputable section

open scoped BigOperators

namespace Cert.KernelIdeal.Region0

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The layer of the region's input arrays, as the region finds them. -/
abbrev G (c : Dev nD) : S50000x128.Idx → EReal :=
  Cheb.layer (n := 50000) (d := 128) (V c main_arg0) (V c main_v46) (V c main_v59) (V c main_arg3) (fun j => V c main_v60 (ix2 (0 : Fin 1) j))

/-- The printed index maps, decided over the grid: the three row-blocked inputs sit at the output's block row, every
    block column is 0, the weight stack and the bias row never move. -/
theorem idx_facts : ∀ t : Fin cfg0.N,
    win0_0.index t (0 : Fin 2) = win0_5.index t (0 : Fin 2) ∧ win0_0.index t (1 : Fin 2) = 0
  ∧ win0_1.index t (0 : Fin 2) = win0_5.index t (0 : Fin 2) ∧ win0_1.index t (1 : Fin 2) = 0
  ∧ win0_2.index t (0 : Fin 2) = win0_5.index t (0 : Fin 2) ∧ win0_2.index t (1 : Fin 2) = 0
  ∧ win0_3.index t (0 : Fin 3) = 0 ∧ win0_3.index t (1 : Fin 3) = 0 ∧ win0_3.index t (2 : Fin 3) = 0
  ∧ win0_4.index t (0 : Fin 2) = 0 ∧ win0_4.index t (1 : Fin 2) = 0
  ∧ win0_5.index t (1 : Fin 2) = 0 ∧ win0_5.index t (0 : Fin 2) ≤ 9 :=
  (by decide +kernel : ∀ t : Fin grid0.N, _)

/-- Every block row of the output is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- A load of slice `s` of the weight stack, as a matrix, is the stack's matrix `s`. -/
theorem slice0 (x3 : Vec Ideal S3x128x128 .f32) (k q : Fin 128) : mat (View.ld x3 r0_1) k q = x3 (ix3 (0 : Fin 3) k q) := by
  show x3 (r0_1.emb (ix3 (0 : Fin 1) k q)) = _
  refine congrArg x3 (funext fun a => Fin.ext ?_)
  match a with
  | ⟨0, _⟩ => show 0 + 1 * 0 = 0; rfl
  | ⟨1, _⟩ => show 0 + 1 * k.val = k.val; omega
  | ⟨2, _⟩ => show 0 + 1 * q.val = q.val; omega
theorem slice1 (x3 : Vec Ideal S3x128x128 .f32) (k q : Fin 128) : mat (View.ld x3 r0_2) k q = x3 (ix3 (1 : Fin 3) k q) := by
  show x3 (r0_2.emb (ix3 (0 : Fin 1) k q)) = _
  refine congrArg x3 (funext fun a => Fin.ext ?_)
  match a with
  | ⟨0, _⟩ => show 1 + 1 * 0 = 1; rfl
  | ⟨1, _⟩ => show 0 + 1 * k.val = k.val; omega
  | ⟨2, _⟩ => show 0 + 1 * q.val = q.val; omega
theorem slice2 (x3 : Vec Ideal S3x128x128 .f32) (k q : Fin 128) : mat (View.ld x3 r0_3) k q = x3 (ix3 (2 : Fin 3) k q) := by
  show x3 (r0_3.emb (ix3 (0 : Fin 1) k q)) = _
  refine congrArg x3 (funext fun a => Fin.ext ?_)
  match a with
  | ⟨0, _⟩ => show 2 + 1 * 0 = 2; rfl
  | ⟨1, _⟩ => show 0 + 1 * k.val = k.val; omega
  | ⟨2, _⟩ => show 0 + 1 * q.val = q.val; omega

/-- One stored entry, over blocks that are known to be the arrays' rows: the layer's entry at the array index `i`
    whose row the blocks' row `p` is and whose column is `q`. -/
theorem point_apply (x0 x1 x2 : Vec Ideal S5000x128 .f32) (x3 : Vec Ideal S3x128x128 .f32) (x4 : Vec Ideal S1x128 .f32)
    (X T S : S50000x128.Idx → EReal) (W : S3x128x128.Idx → EReal) (B : S1x128.Idx → EReal)
    (p : Fin 5000) (q : Fin 128) (i : S50000x128.Idx)
    (hx : ∀ k, x0 (ix2 p k) = X (ix2 (i 0) k)) (ht : ∀ k, x1 (ix2 p k) = T (ix2 (i 0) k)) (hs : ∀ k, x2 (ix2 p k) = S (ix2 (i 0) k))
    (hw : ∀ y, x3 y = W y) (hb : ∀ y, x4 y = B y) (hq : (i 1).val = q.val) :
    k0_pay1 (F := Ideal) x0 x1 x2 (View.ld x3 r0_1) (View.ld x3 r0_2) (View.ld x3 r0_3) x4 (ix2 p q)
      = Cheb.layer (n := 50000) (d := 128) X T S W (fun j => B (ix2 (0 : Fin 1) j)) i := by
  have hq' : q = (i 1 : Fin 128) := Fin.ext hq.symm
  refine (pay0_apply x0 x1 x2 _ _ _ x4 p q).trans ?_
  unfold Cheb.layer
  exact Cheb.entry_congr hx ht hs
    (fun k => (slice0 x3 k q).trans ((hw _).trans (congrArg (fun z : Fin 128 => W (ix3 (0 : Fin 3) k z)) hq')))
    (fun k => (slice1 x3 k q).trans ((hw _).trans (congrArg (fun z : Fin 128 => W (ix3 (1 : Fin 3) k z)) hq')))
    (fun k => (slice2 x3 k q).trans ((hw _).trans (congrArg (fun z : Fin 128 => W (ix3 (2 : Fin 3) k z)) hq')))
    ((hb _).trans (congrArg (fun z : Fin 128 => B (ix2 (0 : Fin 1) z)) hq'))

/-- WHAT POINT `t` WRITES BACK is block `t` of the layer of the arrays as the region finds them. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S1x128) zeros2]
  obtain ⟨e00, e01, e10, e11, e20, e21, e30, e31, e32, e40, e41, e51, e50⟩ := idx_facts t
  funext j
  obtain ⟨p, q, rfl⟩ : ∃ (p : Fin 5000) (q : Fin 128), j = ix2 p q := ⟨j 0, j 1, eq_ix2 j⟩
  refine point_apply (iblk0 V c 0 t) (iblk0 V c 1 t) (iblk0 V c 2 t) (iblk0 V c 3 t) (iblk0 V c 4 t)
    (V c main_arg0) (V c main_v46) (V c main_v59) (V c main_arg3) (V c main_v60) p q (((cfg0.win 5).blk t).view.emb (ix2 p q)) ?_ ?_ ?_ ?_ ?_ ?_
  · intro k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_v46 (((cfg0.win 1).blk t).view.emb (ix2 p k)) = _
    refine congrArg (V c main_v46) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_v59 (((cfg0.win 2).blk t).view.emb (ix2 p k)) = _
    refine congrArg (V c main_v59) (funext fun a => Fin.ext ?_)
    match a with
    | ⟨0, _⟩ => show win0_2.index t (0 : Fin 2) * 5000 + 1 * p.val = win0_5.index t (0 : Fin 2) * 5000 + 1 * p.val; omega
    | ⟨1, _⟩ => show win0_2.index t (1 : Fin 2) * 128 + 1 * k.val = k.val; omega
  · intro y
    show V c main_arg3 (((cfg0.win 3).blk t).view.emb y) = _
    refine congrArg (V c main_arg3) (funext fun a => Fin.ext ?_)
    match a with
    | ⟨0, _⟩ => show win0_3.index t (0 : Fin 3) * 3 + 1 * (y 0).val = (y 0).val; omega
    | ⟨1, _⟩ => show win0_3.index t (1 : Fin 3) * 128 + 1 * (y 1).val = (y 1).val; omega
    | ⟨2, _⟩ => show win0_3.index t (2 : Fin 3) * 128 + 1 * (y 2).val = (y 2).val; omega
  · intro y
    show V c main_v60 (((cfg0.win 4).blk t).view.emb y) = _
    refine congrArg (V c main_v60) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show win0_5.index t (1 : Fin 2) * 128 + 1 * q.val = q.val; omega

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v61).slice (win0_5.rect t)).set ↔ _
  rw [View.set_slice_whole, Rect.mem_set_unit]
  exact Iff.rfl

/-- The ten blocks tile the array: row `r` is in the block of the point whose block row is `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the region: the layer of the input arrays as the region finds them. -/
theorem final (c : Dev nD) : (dat0 (F := Ideal) V c).arrAt 5 cfg0.N = G V c :=
  (dat0 V c).arrAt_eq_of_cover 5 (G V c) (fun t _ => flushed_eq V c t) cover

end Cert.KernelIdeal.Region0

end
-- ==== Proof.KRegion1.lean ====
/-
  Region 1: the output array after the region is one layer of its input arrays.

  The region's grid has ten points; point `t` works on node rows 5000·t … 5000·t + 4999.  Its three row-blocked
  inputs and its output move together (block `t` of each), the weight stack and the bias row are held whole at every
  point.  So what point `t` writes back is block `t` of `Cheb.layer` of the five input arrays as the region finds
  them; the ten blocks tile the output array (row `r` lies in the block of point `r / 5000`), hence the whole array
  ends at that layer.
-/
import proofs.«133667_j64707977281780_2_alg».proof.Proof.Gen.KernelIdeal.Frame
import proofs.«133667_j64707977281780_2_alg».proof.Proof.KPayload

set_option maxRecDepth 16384

noncomputable section

open scoped BigOperators

namespace Cert.KernelIdeal.Region1

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The layer of the region's input arrays, as the region finds them. -/
abbrev G (c : Dev nD) : S50000x128.Idx → EReal :=
  Cheb.layer (n := 50000) (d := 128) (V c main_v61) (V c main_v74) (V c main_v87) (V c main_arg5) (fun j => V c main_v88 (ix2 (0 : Fin 1) j))

/-- The printed index maps, decided over the grid: the three row-blocked inputs sit at the output's block row, every
    block column is 0, the weight stack and the bias row never move. -/
theorem idx_facts : ∀ t : Fin cfg1.N,
    win1_0.index t (0 : Fin 2) = win1_5.index t (0 : Fin 2) ∧ win1_0.index t (1 : Fin 2) = 0
  ∧ win1_1.index t (0 : Fin 2) = win1_5.index t (0 : Fin 2) ∧ win1_1.index t (1 : Fin 2) = 0
  ∧ win1_2.index t (0 : Fin 2) = win1_5.index t (0 : Fin 2) ∧ win1_2.index t (1 : Fin 2) = 0
  ∧ win1_3.index t (0 : Fin 3) = 0 ∧ win1_3.index t (1 : Fin 3) = 0 ∧ win1_3.index t (2 : Fin 3) = 0
  ∧ win1_4.index t (0 : Fin 2) = 0 ∧ win1_4.index t (1 : Fin 2) = 0
  ∧ win1_5.index t (1 : Fin 2) = 0 ∧ win1_5.index t (0 : Fin 2) ≤ 9 :=
  (by decide +kernel : ∀ t : Fin grid1.N, _)

/-- Every block row of the output is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- A load of slice `s` of the weight stack, as a matrix, is the stack's matrix `s`. -/
theorem slice0 (x3 : Vec Ideal S3x128x128 .f32) (k q : Fin 128) : mat (View.ld x3 r1_1) k q = x3 (ix3 (0 : Fin 3) k q) := by
  show x3 (r1_1.emb (ix3 (0 : Fin 1) k q)) = _
  refine congrArg x3 (funext fun a => Fin.ext ?_)
  match a with
  | ⟨0, _⟩ => show 0 + 1 * 0 = 0; rfl
  | ⟨1, _⟩ => show 0 + 1 * k.val = k.val; omega
  | ⟨2, _⟩ => show 0 + 1 * q.val = q.val; omega
theorem slice1 (x3 : Vec Ideal S3x128x128 .f32) (k q : Fin 128) : mat (View.ld x3 r1_2) k q = x3 (ix3 (1 : Fin 3) k q) := by
  show x3 (r1_2.emb (ix3 (0 : Fin 1) k q)) = _
  refine congrArg x3 (funext fun a => Fin.ext ?_)
  match a with
  | ⟨0, _⟩ => show 1 + 1 * 0 = 1; rfl
  | ⟨1, _⟩ => show 0 + 1 * k.val = k.val; omega
  | ⟨2, _⟩ => show 0 + 1 * q.val = q.val; omega
theorem slice2 (x3 : Vec Ideal S3x128x128 .f32) (k q : Fin 128) : mat (View.ld x3 r1_3) k q = x3 (ix3 (2 : Fin 3) k q) := by
  show x3 (r1_3.emb (ix3 (0 : Fin 1) k q)) = _
  refine congrArg x3 (funext fun a => Fin.ext ?_)
  match a with
  | ⟨0, _⟩ => show 2 + 1 * 0 = 2; rfl
  | ⟨1, _⟩ => show 0 + 1 * k.val = k.val; omega
  | ⟨2, _⟩ => show 0 + 1 * q.val = q.val; omega

/-- One stored entry, over blocks that are known to be the arrays' rows: the layer's entry at the array index `i`
    whose row the blocks' row `p` is and whose column is `q`. -/
theorem point_apply (x0 x1 x2 : Vec Ideal S5000x128 .f32) (x3 : Vec Ideal S3x128x128 .f32) (x4 : Vec Ideal S1x128 .f32)
    (X T S : S50000x128.Idx → EReal) (W : S3x128x128.Idx → EReal) (B : S1x128.Idx → EReal)
    (p : Fin 5000) (q : Fin 128) (i : S50000x128.Idx)
    (hx : ∀ k, x0 (ix2 p k) = X (ix2 (i 0) k)) (ht : ∀ k, x1 (ix2 p k) = T (ix2 (i 0) k)) (hs : ∀ k, x2 (ix2 p k) = S (ix2 (i 0) k))
    (hw : ∀ y, x3 y = W y) (hb : ∀ y, x4 y = B y) (hq : (i 1).val = q.val) :
    k1_pay1 (F := Ideal) x0 x1 x2 (View.ld x3 r1_1) (View.ld x3 r1_2) (View.ld x3 r1_3) x4 (ix2 p q)
      = Cheb.layer (n := 50000) (d := 128) X T S W (fun j => B (ix2 (0 : Fin 1) j)) i := by
  have hq' : q = (i 1 : Fin 128) := Fin.ext hq.symm
  refine (pay1_apply x0 x1 x2 _ _ _ x4 p q).trans ?_
  unfold Cheb.layer
  exact Cheb.entry_congr hx ht hs
    (fun k => (slice0 x3 k q).trans ((hw _).trans (congrArg (fun z : Fin 128 => W (ix3 (0 : Fin 3) k z)) hq')))
    (fun k => (slice1 x3 k q).trans ((hw _).trans (congrArg (fun z : Fin 128 => W (ix3 (1 : Fin 3) k z)) hq')))
    (fun k => (slice2 x3 k q).trans ((hw _).trans (congrArg (fun z : Fin 128 => W (ix3 (2 : Fin 3) k z)) hq')))
    ((hb _).trans (congrArg (fun z : Fin 128 => B (ix2 (0 : Fin 1) z)) hq'))

/-- WHAT POINT `t` WRITES BACK is block `t` of the layer of the arrays as the region finds them. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S1x128) zeros2]
  obtain ⟨e00, e01, e10, e11, e20, e21, e30, e31, e32, e40, e41, e51, e50⟩ := idx_facts t
  funext j
  obtain ⟨p, q, rfl⟩ : ∃ (p : Fin 5000) (q : Fin 128), j = ix2 p q := ⟨j 0, j 1, eq_ix2 j⟩
  refine point_apply (iblk1 V c 0 t) (iblk1 V c 1 t) (iblk1 V c 2 t) (iblk1 V c 3 t) (iblk1 V c 4 t)
    (V c main_v61) (V c main_v74) (V c main_v87) (V c main_arg5) (V c main_v88) p q (((cfg1.win 5).blk t).view.emb (ix2 p q)) ?_ ?_ ?_ ?_ ?_ ?_
  · intro k
    show V c main_v61 (((cfg1.win 0).blk t).view.emb (ix2 p k)) = _
    refine congrArg (V c main_v61) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · intro k
    show V c main_v74 (((cfg1.win 1).blk t).view.emb (ix2 p k)) = _
    refine congrArg (V c main_v74) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · intro k
    show V c main_v87 (((cfg1.win 2).blk t).view.emb (ix2 p k)) = _
    refine congrArg (V c main_v87) (funext fun a => Fin.ext ?_)
    match a with
    | ⟨0, _⟩ => show win1_2.index t (0 : Fin 2) * 5000 + 1 * p.val = win1_5.index t (0 : Fin 2) * 5000 + 1 * p.val; omega
    | ⟨1, _⟩ => show win1_2.index t (1 : Fin 2) * 128 + 1 * k.val = k.val; omega
  · intro y
    show V c main_arg5 (((cfg1.win 3).blk t).view.emb y) = _
    refine congrArg (V c main_arg5) (funext fun a => Fin.ext ?_)
    match a with
    | ⟨0, _⟩ => show win1_3.index t (0 : Fin 3) * 3 + 1 * (y 0).val = (y 0).val; omega
    | ⟨1, _⟩ => show win1_3.index t (1 : Fin 3) * 128 + 1 * (y 1).val = (y 1).val; omega
    | ⟨2, _⟩ => show win1_3.index t (2 : Fin 3) * 128 + 1 * (y 2).val = (y 2).val; omega
  · intro y
    show V c main_v88 (((cfg1.win 4).blk t).view.emb y) = _
    refine congrArg (V c main_v88) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show win1_5.index t (1 : Fin 2) * 128 + 1 * q.val = q.val; omega

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v89).slice (win1_5.rect t)).set ↔ _
  rw [View.set_slice_whole, Rect.mem_set_unit]
  exact Iff.rfl

/-- The ten blocks tile the array: row `r` is in the block of the point whose block row is `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the region: the layer of the input arrays as the region finds them. -/
theorem final (c : Dev nD) : (dat1 (F := Ideal) V c).arrAt 5 cfg1.N = G V c :=
  (dat1 V c).arrAt_eq_of_cover 5 (G V c) (fun t _ => flushed_eq V c t) cover

end Cert.KernelIdeal.Region1

end
-- ==== Proof.KRegion2.lean ====
/-
  Region 2: the output array after the region is one layer of its input arrays.

  The region's grid has ten points; point `t` works on node rows 5000·t … 5000·t + 4999.  Its three row-blocked
  inputs and its output move together (block `t` of each), the weight stack and the bias row are held whole at every
  point.  So what point `t` writes back is block `t` of `Cheb.layer` of the five input arrays as the region finds
  them; the ten blocks tile the output array (row `r` lies in the block of point `r / 5000`), hence the whole array
  ends at that layer.
-/
import proofs.«133667_j64707977281780_2_alg».proof.Proof.Gen.KernelIdeal.Frame
import proofs.«133667_j64707977281780_2_alg».proof.Proof.KPayload

set_option maxRecDepth 16384

noncomputable section

open scoped BigOperators

namespace Cert.KernelIdeal.Region2

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The layer of the region's input arrays, as the region finds them. -/
abbrev G (c : Dev nD) : S50000x128.Idx → EReal :=
  Cheb.layer (n := 50000) (d := 128) (V c main_v89) (V c main_v104) (V c main_v117) (V c main_v90) (fun j => V c main_v118 (ix2 (0 : Fin 1) j))

/-- The printed index maps, decided over the grid: the three row-blocked inputs sit at the output's block row, every
    block column is 0, the weight stack and the bias row never move. -/
theorem idx_facts : ∀ t : Fin cfg2.N,
    win2_0.index t (0 : Fin 2) = win2_5.index t (0 : Fin 2) ∧ win2_0.index t (1 : Fin 2) = 0
  ∧ win2_1.index t (0 : Fin 2) = win2_5.index t (0 : Fin 2) ∧ win2_1.index t (1 : Fin 2) = 0
  ∧ win2_2.index t (0 : Fin 2) = win2_5.index t (0 : Fin 2) ∧ win2_2.index t (1 : Fin 2) = 0
  ∧ win2_3.index t (0 : Fin 3) = 0 ∧ win2_3.index t (1 : Fin 3) = 0 ∧ win2_3.index t (2 : Fin 3) = 0
  ∧ win2_4.index t (0 : Fin 2) = 0 ∧ win2_4.index t (1 : Fin 2) = 0
  ∧ win2_5.index t (1 : Fin 2) = 0 ∧ win2_5.index t (0 : Fin 2) ≤ 9 :=
  (by decide +kernel : ∀ t : Fin grid2.N, _)

/-- Every block row of the output is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- A load of slice `s` of the weight stack, as a matrix, is the stack's matrix `s`. -/
theorem slice0 (x3 : Vec Ideal S3x128x128 .f32) (k q : Fin 128) : mat (View.ld x3 r2_1) k q = x3 (ix3 (0 : Fin 3) k q) := by
  show x3 (r2_1.emb (ix3 (0 : Fin 1) k q)) = _
  refine congrArg x3 (funext fun a => Fin.ext ?_)
  match a with
  | ⟨0, _⟩ => show 0 + 1 * 0 = 0; rfl
  | ⟨1, _⟩ => show 0 + 1 * k.val = k.val; omega
  | ⟨2, _⟩ => show 0 + 1 * q.val = q.val; omega
theorem slice1 (x3 : Vec Ideal S3x128x128 .f32) (k q : Fin 128) : mat (View.ld x3 r2_2) k q = x3 (ix3 (1 : Fin 3) k q) := by
  show x3 (r2_2.emb (ix3 (0 : Fin 1) k q)) = _
  refine congrArg x3 (funext fun a => Fin.ext ?_)
  match a with
  | ⟨0, _⟩ => show 1 + 1 * 0 = 1; rfl
  | ⟨1, _⟩ => show 0 + 1 * k.val = k.val; omega
  | ⟨2, _⟩ => show 0 + 1 * q.val = q.val; omega
theorem slice2 (x3 : Vec Ideal S3x128x128 .f32) (k q : Fin 128) : mat (View.ld x3 r2_3) k q = x3 (ix3 (2 : Fin 3) k q) := by
  show x3 (r2_3.emb (ix3 (0 : Fin 1) k q)) = _
  refine congrArg x3 (funext fun a => Fin.ext ?_)
  match a with
  | ⟨0, _⟩ => show 2 + 1 * 0 = 2; rfl
  | ⟨1, _⟩ => show 0 + 1 * k.val = k.val; omega
  | ⟨2, _⟩ => show 0 + 1 * q.val = q.val; omega

/-- One stored entry, over blocks that are known to be the arrays' rows: the layer's entry at the array index `i`
    whose row the blocks' row `p` is and whose column is `q`. -/
theorem point_apply (x0 x1 x2 : Vec Ideal S5000x128 .f32) (x3 : Vec Ideal S3x128x128 .f32) (x4 : Vec Ideal S1x128 .f32)
    (X T S : S50000x128.Idx → EReal) (W : S3x128x128.Idx → EReal) (B : S1x128.Idx → EReal)
    (p : Fin 5000) (q : Fin 128) (i : S50000x128.Idx)
    (hx : ∀ k, x0 (ix2 p k) = X (ix2 (i 0) k)) (ht : ∀ k, x1 (ix2 p k) = T (ix2 (i 0) k)) (hs : ∀ k, x2 (ix2 p k) = S (ix2 (i 0) k))
    (hw : ∀ y, x3 y = W y) (hb : ∀ y, x4 y = B y) (hq : (i 1).val = q.val) :
    k2_pay1 (F := Ideal) x0 x1 x2 (View.ld x3 r2_1) (View.ld x3 r2_2) (View.ld x3 r2_3) x4 (ix2 p q)
      = Cheb.layer (n := 50000) (d := 128) X T S W (fun j => B (ix2 (0 : Fin 1) j)) i := by
  have hq' : q = (i 1 : Fin 128) := Fin.ext hq.symm
  refine (pay2_apply x0 x1 x2 _ _ _ x4 p q).trans ?_
  unfold Cheb.layer
  exact Cheb.entry_congr hx ht hs
    (fun k => (slice0 x3 k q).trans ((hw _).trans (congrArg (fun z : Fin 128 => W (ix3 (0 : Fin 3) k z)) hq')))
    (fun k => (slice1 x3 k q).trans ((hw _).trans (congrArg (fun z : Fin 128 => W (ix3 (1 : Fin 3) k z)) hq')))
    (fun k => (slice2 x3 k q).trans ((hw _).trans (congrArg (fun z : Fin 128 => W (ix3 (2 : Fin 3) k z)) hq')))
    ((hb _).trans (congrArg (fun z : Fin 128 => B (ix2 (0 : Fin 1) z)) hq'))

/-- WHAT POINT `t` WRITES BACK is block `t` of the layer of the arrays as the region finds them. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S1x128) zeros2]
  obtain ⟨e00, e01, e10, e11, e20, e21, e30, e31, e32, e40, e41, e51, e50⟩ := idx_facts t
  funext j
  obtain ⟨p, q, rfl⟩ : ∃ (p : Fin 5000) (q : Fin 128), j = ix2 p q := ⟨j 0, j 1, eq_ix2 j⟩
  refine point_apply (iblk2 V c 0 t) (iblk2 V c 1 t) (iblk2 V c 2 t) (iblk2 V c 3 t) (iblk2 V c 4 t)
    (V c main_v89) (V c main_v104) (V c main_v117) (V c main_v90) (V c main_v118) p q (((cfg2.win 5).blk t).view.emb (ix2 p q)) ?_ ?_ ?_ ?_ ?_ ?_
  · intro k
    show V c main_v89 (((cfg2.win 0).blk t).view.emb (ix2 p k)) = _
    refine congrArg (V c main_v89) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · intro k
    show V c main_v104 (((cfg2.win 1).blk t).view.emb (ix2 p k)) = _
    refine congrArg (V c main_v104) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  · intro k
    show V c main_v117 (((cfg2.win 2).blk t).view.emb (ix2 p k)) = _
    refine congrArg (V c main_v117) (funext fun a => Fin.ext ?_)
    match a with
    | ⟨0, _⟩ => show win2_2.index t (0 : Fin 2) * 5000 + 1 * p.val = win2_5.index t (0 : Fin 2) * 5000 + 1 * p.val; omega
    | ⟨1, _⟩ => show win2_2.index t (1 : Fin 2) * 128 + 1 * k.val = k.val; omega
  · intro y
    show V c main_v90 (((cfg2.win 3).blk t).view.emb y) = _
    refine congrArg (V c main_v90) (funext fun a => Fin.ext ?_)
    match a with
    | ⟨0, _⟩ => show win2_3.index t (0 : Fin 3) * 3 + 1 * (y 0).val = (y 0).val; omega
    | ⟨1, _⟩ => show win2_3.index t (1 : Fin 3) * 128 + 1 * (y 1).val = (y 1).val; omega
    | ⟨2, _⟩ => show win2_3.index t (2 : Fin 3) * 128 + 1 * (y 2).val = (y 2).val; omega
  · intro y
    show V c main_v118 (((cfg2.win 4).blk t).view.emb y) = _
    refine congrArg (V c main_v118) (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  · show win2_5.index t (1 : Fin 2) * 128 + 1 * q.val = q.val; omega

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v119).slice (win2_5.rect t)).set ↔ _
  rw [View.set_slice_whole, Rect.mem_set_unit]
  exact Iff.rfl

/-- The ten blocks tile the array: row `r` is in the block of the point whose block row is `r / 5000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY after the region: the layer of the input arrays as the region finds them. -/
theorem final (c : Dev nD) : (dat2 (F := Ideal) V c).arrAt 5 cfg2.N = G V c :=
  (dat2 V c).arrAt_eq_of_cover 5 (G V c) (fun t _ => flushed_eq V c t) cover

end Cert.KernelIdeal.Region2

end
-- ==== Proof.RLayers.lean ====
/-
  The reference, layer by layer.

  The reference computes each Chebyshev layer on the host: three products of [50000,128] arrays with the slices of the
  weight stack, summed as (first + second) + third, the bias added along the rows, and the logistic function spelled
  as the quotient 1 / (1 + exp(−z)) over the pattern of 1.0.  Read at an index, each product is a sum over the 128
  input features, the slices and their reshapes only re-index the weight stack, and the quotient is the logistic
  function; so a layer's output stage is `Cheb.layer` of its input stage, of the two sparse stages built from it, of
  the weight stack and of the bias.  The sparse stages (the products with L̂) are left as they are.
-/
import proofs.«133667_j64707977281780_2_alg».proof.Proof.Gen.ReferenceIdeal.Read
import proofs.«133667_j64707977281780_2_alg».proof.Proof.ChebEntry

set_option maxRecDepth 16384

noncomputable section

open scoped BigOperators

namespace Cert.ReferenceIdeal.Layers

open Cert.ReferenceIdeal Cert.ReferenceIdeal.Gen Cert.ReferenceIdeal.Read Idealize.ShloMosaic Idealize.ShloMosaic.ValueIdx

/-- Layer 1 of the reference: its stage `v82` is the layer function of the layer's input, of L̂ applied to it once and twice
    (the stages `v49`, `v66`), of the weight stack and of the bias. -/
theorem layer1_eq (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S3x128x128, .f32⟩ : BufTy).Contents (Elt Ideal)) (x4 : (⟨S128, .f32⟩ : BufTy).Contents (Elt Ideal)) :
    val_main_v82 (F := Ideal) x0 x1 x2 x3 x4 = Cheb.layer (n := 50000) (d := 128) x0 (val_main_v49 (F := Ideal) x0 x1 x2) (val_main_v66 (F := Ideal) x0 x1 x2) x3 (fun j => x4 (ix1 j)) := by
  funext i
  have h1 : (i 1).val < 128 := (i 1).isLt
  rw [val_main_v82_apply, val_main_v81_apply, val_main_cst_14_apply, val_main_v80_apply, val_main_v79_apply, val_main_cst_13_apply, val_main_v78_apply, val_main_v77_apply, val_main_v76_apply, val_main_v75_apply, val_main_v74_apply, val_main_v73_apply, val_main_v53_apply, val_main_v36_apply, val_main_v52_apply, val_main_v72_apply]
  simp only [Ideal.addf_def, Ideal.ofBits_def, Ideal.hostDivf_def, Ideal.hostUnary_exp_def, Ideal.hostNegf_def, Ideal.negf_def]
  refine (Cheb.logistic_spelled _).trans ?_
  unfold Cheb.layer Cheb.entry Cheb.pre
  refine congrArg Ideal.logistic ?_
  refine congrArg₂ (· + ·) (congrArg₂ (· + ·) (congrArg₂ (· + ·) ?_ ?_) ?_) ?_
  · refine Finset.sum_congr rfl fun k _ => ?_
    rw [val_main_v35_apply, val_main_v34_apply]
    refine congrArg₂ (· * ·) (congrArg _ ?_) (congrArg _ ?_)
    · exact funext fun a => match a with | ⟨0, _⟩ => rfl | ⟨1, _⟩ => rfl
    · refine funext fun a => Fin.ext ?_
      have hk := k.isLt
      match a with
      | ⟨0, _⟩ => rfl
      | ⟨1, _⟩ => show (k.val * 128 + (i 1).val) / 128 % 128 = k.val; omega
      | ⟨2, _⟩ => show (k.val * 128 + (i 1).val) % 128 = (i 1).val; omega
  · refine Finset.sum_congr rfl fun k _ => ?_
    rw [val_main_v51_apply, val_main_v50_apply]
    refine congrArg₂ (· * ·) (congrArg _ ?_) (congrArg _ ?_)
    · exact funext fun a => match a with | ⟨0, _⟩ => rfl | ⟨1, _⟩ => rfl
    · refine funext fun a => Fin.ext ?_
      have hk := k.isLt
      match a with
      | ⟨0, _⟩ => rfl
      | ⟨1, _⟩ => show (k.val * 128 + (i 1).val) / 128 % 128 = k.val; omega
      | ⟨2, _⟩ => show (k.val * 128 + (i 1).val) % 128 = (i 1).val; omega
  · refine Finset.sum_congr rfl fun k _ => ?_
    rw [val_main_v71_apply, val_main_v70_apply, val_main_v69_apply, val_main_v68_apply, val_main_v67_apply, val_main_cst_12_apply]
    refine congrArg₂ (· * ·) (congrArg₂ (· - ·) (congrArg (Cheb.two * ·) (congrArg _ ?_)) (congrArg _ ?_)) (congrArg _ ?_)
    · exact funext fun a => match a with | ⟨0, _⟩ => rfl | ⟨1, _⟩ => rfl
    · exact funext fun a => match a with | ⟨0, _⟩ => rfl | ⟨1, _⟩ => rfl
    · refine funext fun a => Fin.ext ?_
      have hk := k.isLt
      match a with
      | ⟨0, _⟩ => rfl
      | ⟨1, _⟩ => show (k.val * 128 + (i 1).val) / 128 % 128 = k.val; omega
      | ⟨2, _⟩ => show (k.val * 128 + (i 1).val) % 128 = (i 1).val; omega
  · exact congrArg _ (funext fun a => match a with | ⟨0, _⟩ => rfl)

/-- Layer 2 of the reference: its stage `v131` is the layer function of the layer's input, of L̂ applied to it once and twice
    (the stages `v98`, `v115`), of the weight stack and of the bias. -/
theorem layer2_eq (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S3x128x128, .f32⟩ : BufTy).Contents (Elt Ideal)) (x4 : (⟨S128, .f32⟩ : BufTy).Contents (Elt Ideal)) (x5 : (⟨S3x128x128, .f32⟩ : BufTy).Contents (Elt Ideal)) (x6 : (⟨S128, .f32⟩ : BufTy).Contents (Elt Ideal)) :
    val_main_v131 (F := Ideal) x0 x1 x2 x3 x4 x5 x6 = Cheb.layer (n := 50000) (d := 128) (val_main_v82 (F := Ideal) x0 x1 x2 x3 x4) (val_main_v98 (F := Ideal) x0 x1 x2 x3 x4) (val_main_v115 (F := Ideal) x0 x1 x2 x3 x4) x5 (fun j => x6 (ix1 j)) := by
  funext i
  have h1 : (i 1).val < 128 := (i 1).isLt
  rw [val_main_v131_apply, val_main_v130_apply, val_main_cst_23_apply, val_main_v129_apply, val_main_v128_apply, val_main_cst_22_apply, val_main_v127_apply, val_main_v126_apply, val_main_v125_apply, val_main_v124_apply, val_main_v123_apply, val_main_v122_apply, val_main_v102_apply, val_main_v85_apply, val_main_v101_apply, val_main_v121_apply]
  simp only [Ideal.addf_def, Ideal.ofBits_def, Ideal.hostDivf_def, Ideal.hostUnary_exp_def, Ideal.hostNegf_def, Ideal.negf_def]
  refine (Cheb.logistic_spelled _).trans ?_
  unfold Cheb.layer Cheb.entry Cheb.pre
  refine congrArg Ideal.logistic ?_
  refine congrArg₂ (· + ·) (congrArg₂ (· + ·) (congrArg₂ (· + ·) ?_ ?_) ?_) ?_
  · refine Finset.sum_congr rfl fun k _ => ?_
    rw [val_main_v84_apply, val_main_v83_apply]
    refine congrArg₂ (· * ·) (congrArg _ ?_) (congrArg _ ?_)
    · exact funext fun a => match a with | ⟨0, _⟩ => rfl | ⟨1, _⟩ => rfl
    · refine funext fun a => Fin.ext ?_
      have hk := k.isLt
      match a with
      | ⟨0, _⟩ => rfl
      | ⟨1, _⟩ => show (k.val * 128 + (i 1).val) / 128 % 128 = k.val; omega
      | ⟨2, _⟩ => show (k.val * 128 + (i 1).val) % 128 = (i 1).val; omega
  · refine Finset.sum_congr rfl fun k _ => ?_
    rw [val_main_v100_apply, val_main_v99_apply]
    refine congrArg₂ (· * ·) (congrArg _ ?_) (congrArg _ ?_)
    · exact funext fun a => match a with | ⟨0, _⟩ => rfl | ⟨1, _⟩ => rfl
    · refine funext fun a => Fin.ext ?_
      have hk := k.isLt
      match a with
      | ⟨0, _⟩ => rfl
      | ⟨1, _⟩ => show (k.val * 128 + (i 1).val) / 128 % 128 = k.val; omega
      | ⟨2, _⟩ => show (k.val * 128 + (i 1).val) % 128 = (i 1).val; omega
  · refine Finset.sum_congr rfl fun k _ => ?_
    rw [val_main_v120_apply, val_main_v119_apply, val_main_v118_apply, val_main_v117_apply, val_main_v116_apply, val_main_cst_21_apply]
    refine congrArg₂ (· * ·) (congrArg₂ (· - ·) (congrArg (Cheb.two * ·) (congrArg _ ?_)) (congrArg _ ?_)) (congrArg _ ?_)
    · exact funext fun a => match a with | ⟨0, _⟩ => rfl | ⟨1, _⟩ => rfl
    · exact funext fun a => match a with | ⟨0, _⟩ => rfl | ⟨1, _⟩ => rfl
    · refine funext fun a => Fin.ext ?_
      have hk := k.isLt
      match a with
      | ⟨0, _⟩ => rfl
      | ⟨1, _⟩ => show (k.val * 128 + (i 1).val) / 128 % 128 = k.val; omega
      | ⟨2, _⟩ => show (k.val * 128 + (i 1).val) % 128 = (i 1).val; omega
  · exact congrArg _ (funext fun a => match a with | ⟨0, _⟩ => rfl)

/-- Layer 3 of the reference: its stage `v180` is the layer function of the layer's input, of L̂ applied to it once and twice
    (the stages `v147`, `v164`), of the weight stack and of the bias. -/
theorem layer3_eq (x0 : (⟨S50000x128, .f32⟩ : BufTy).Contents (Elt Ideal)) (x1 : (⟨S2x1600000, .i32⟩ : BufTy).Contents (Elt Ideal)) (x2 : (⟨S1600000, .f32⟩ : BufTy).Contents (Elt Ideal)) (x3 : (⟨S3x128x128, .f32⟩ : BufTy).Contents (Elt Ideal)) (x4 : (⟨S128, .f32⟩ : BufTy).Contents (Elt Ideal)) (x5 : (⟨S3x128x128, .f32⟩ : BufTy).Contents (Elt Ideal)) (x6 : (⟨S128, .f32⟩ : BufTy).Contents (Elt Ideal)) (x7 : (⟨S3x128x64, .f32⟩ : BufTy).Contents (Elt Ideal)) (x8 : (⟨S64, .f32⟩ : BufTy).Contents (Elt Ideal)) :
    val_main_v180 (F := Ideal) x0 x1 x2 x3 x4 x5 x6 x7 x8 = Cheb.layer (n := 50000) (d := 64) (val_main_v131 (F := Ideal) x0 x1 x2 x3 x4 x5 x6) (val_main_v147 (F := Ideal) x0 x1 x2 x3 x4 x5 x6) (val_main_v164 (F := Ideal) x0 x1 x2 x3 x4 x5 x6) x7 (fun j => x8 (ix1 j)) := by
  funext i
  have h1 : (i 1).val < 64 := (i 1).isLt
  rw [val_main_v180_apply, val_main_v179_apply, val_main_cst_32_apply, val_main_v178_apply, val_main_v177_apply, val_main_cst_31_apply, val_main_v176_apply, val_main_v175_apply, val_main_v174_apply, val_main_v173_apply, val_main_v172_apply, val_main_v171_apply, val_main_v151_apply, val_main_v134_apply, val_main_v150_apply, val_main_v170_apply]
  simp only [Ideal.addf_def, Ideal.ofBits_def, Ideal.hostDivf_def, Ideal.hostUnary_exp_def, Ideal.hostNegf_def, Ideal.negf_def]
  refine (Cheb.logistic_spelled _).trans ?_
  unfold Cheb.layer Cheb.entry Cheb.pre
  refine congrArg Ideal.logistic ?_
  refine congrArg₂ (· + ·) (congrArg₂ (· + ·) (congrArg₂ (· + ·) ?_ ?_) ?_) ?_
  · refine Finset.sum_congr rfl fun k _ => ?_
    rw [val_main_v133_apply, val_main_v132_apply]
    refine congrArg₂ (· * ·) (congrArg _ ?_) (congrArg _ ?_)
    · exact funext fun a => match a with | ⟨0, _⟩ => rfl | ⟨1, _⟩ => rfl
    · refine funext fun a => Fin.ext ?_
      have hk := k.isLt
      match a with
      | ⟨0, _⟩ => rfl
      | ⟨1, _⟩ => show (k.val * 64 + (i 1).val) / 64 % 128 = k.val; omega
      | ⟨2, _⟩ => show (k.val * 64 + (i 1).val) % 64 = (i 1).val; omega
  · refine Finset.sum_congr rfl fun k _ => ?_
    rw [val_main_v149_apply, val_main_v148_apply]
    refine congrArg₂ (· * ·) (congrArg _ ?_) (congrArg _ ?_)
    · exact funext fun a => match a with | ⟨0, _⟩ => rfl | ⟨1, _⟩ => rfl
    · refine funext fun a => Fin.ext ?_
      have hk := k.isLt
      match a with
      | ⟨0, _⟩ => rfl
      | ⟨1, _⟩ => show (k.val * 64 + (i 1).val) / 64 % 128 = k.val; omega
      | ⟨2, _⟩ => show (k.val * 64 + (i 1).val) % 64 = (i 1).val; omega
  · refine Finset.sum_congr rfl fun k _ => ?_
    rw [val_main_v169_apply, val_main_v168_apply, val_main_v167_apply, val_main_v166_apply, val_main_v165_apply, val_main_cst_30_apply]
    refine congrArg₂ (· * ·) (congrArg₂ (· - ·) (congrArg (Cheb.two * ·) (congrArg _ ?_)) (congrArg _ ?_)) (congrArg _ ?_)
    · exact funext fun a => match a with | ⟨0, _⟩ => rfl | ⟨1, _⟩ => rfl
    · exact funext fun a => match a with | ⟨0, _⟩ => rfl | ⟨1, _⟩ => rfl
    · refine funext fun a => Fin.ext ?_
      have hk := k.isLt
      match a with
      | ⟨0, _⟩ => rfl
      | ⟨1, _⟩ => show (k.val * 64 + (i 1).val) / 64 % 128 = k.val; omega
      | ⟨2, _⟩ => show (k.val * 64 + (i 1).val) % 64 = (i 1).val; omega
  · exact congrArg _ (funext fun a => match a with | ⟨0, _⟩ => rfl)

end Cert.ReferenceIdeal.Layers

end
-- ==== Proof.KCasts.lean ====
/-
  A module-local function of the program (a `where`, a `pad`) names its operands by references that carry the type of
  the tensor they hold; its operations move a value between that type and the buffer's own type.  At each of the
  program's literal references the two types are one, and the move is the identity: the lemmas below say so, one pair
  per reference.
-/
import proofs.«133667_j64707977281780_2_alg».proof.Proof.Gen.KernelIdeal
import Idealize.ShloMosaic.Lib.StableHlo.Run
import Idealize.ShloMosaic.PureOps.Ideal

set_option maxRecDepth 16384

noncomputable section

namespace Cert.KernelIdeal.Casts

open Cert.KernelIdeal Cert.KernelIdeal.Gen Idealize.ShloMosaic Idealize.ShloMosaic.StableHlo

theorem ofBuf_cst_2 (v : main_cst_2.ty.Contents (Elt Ideal)) :
    (TRef.of (sig := sig) (T := ⟨S_, .f32⟩) main_cst_2).ofBuf v = v := rfl
theorem toBuf_cst_2 (v : (⟨S_, .f32⟩ : BufTy).Contents (Elt Ideal)) :
    (TRef.of (sig := sig) (T := ⟨S_, .f32⟩) main_cst_2).toBuf v = v := rfl
theorem ofBuf_call0_v0 (v : main_call0_v0.ty.Contents (Elt Ideal)) :
    (TRef.of (sig := sig) (T := ⟨S_, .f32⟩) main_call0_v0).ofBuf v = v := rfl
theorem toBuf_call0_v0 (v : (⟨S_, .f32⟩ : BufTy).Contents (Elt Ideal)) :
    (TRef.of (sig := sig) (T := ⟨S_, .f32⟩) main_call0_v0).toBuf v = v := rfl
theorem ofBuf_call0_v1 (v : main_call0_v1.ty.Contents (Elt Ideal)) :
    (TRef.of (sig := sig) (T := ⟨S50000, .f32⟩) main_call0_v1).ofBuf v = v := rfl
theorem toBuf_call0_v1 (v : (⟨S50000, .f32⟩ : BufTy).Contents (Elt Ideal)) :
    (TRef.of (sig := sig) (T := ⟨S50000, .f32⟩) main_call0_v1).toBuf v = v := rfl
theorem ofBuf_v12 (v : main_v12.ty.Contents (Elt Ideal)) :
    (TRef.of (sig := sig) (T := ⟨S50000, .i1⟩) main_v12).ofBuf v = v := rfl
theorem toBuf_v12 (v : (⟨S50000, .i1⟩ : BufTy).Contents (Elt Ideal)) :
    (TRef.of (sig := sig) (T := ⟨S50000, .i1⟩) main_v12).toBuf v = v := rfl
theorem ofBuf_v15 (v : main_v15.ty.Contents (Elt Ideal)) :
    (TRef.of (sig := sig) (T := ⟨S50000, .f32⟩) main_v15).ofBuf v = v := rfl
theorem toBuf_v15 (v : (⟨S50000, .f32⟩ : BufTy).Contents (Elt Ideal)) :
    (TRef.of (sig := sig) (T := ⟨S50000, .f32⟩) main_v15).toBuf v = v := rfl
theorem ofBuf_v16 (v : main_v16.ty.Contents (Elt Ideal)) :
    (TRef.of (sig := sig) (T := ⟨S50000, .f32⟩) main_v16).ofBuf v = v := rfl
theorem toBuf_v16 (v : (⟨S50000, .f32⟩ : BufTy).Contents (Elt Ideal)) :
    (TRef.of (sig := sig) (T := ⟨S50000, .f32⟩) main_v16).toBuf v = v := rfl
theorem ofBuf_c_18 (v : main_c_18.ty.Contents (Elt Ideal)) :
    (TRef.of (sig := sig) (T := ⟨S_, .i32⟩) main_c_18).ofBuf v = v := rfl
theorem toBuf_c_18 (v : (⟨S_, .i32⟩ : BufTy).Contents (Elt Ideal)) :
    (TRef.of (sig := sig) (T := ⟨S_, .i32⟩) main_c_18).toBuf v = v := rfl
theorem ofBuf_call1_v0 (v : main_call1_v0.ty.Contents (Elt Ideal)) :
    (TRef.of (sig := sig) (T := ⟨S_, .f32⟩) main_call1_v0).ofBuf v = v := rfl
theorem toBuf_call1_v0 (v : (⟨S_, .f32⟩ : BufTy).Contents (Elt Ideal)) :
    (TRef.of (sig := sig) (T := ⟨S_, .f32⟩) main_call1_v0).toBuf v = v := rfl
theorem ofBuf_arg7 (v : main_arg7.ty.Contents (Elt Ideal)) :
    (TRef.of (sig := sig) (T := ⟨S3x128x64, .f32⟩) main_arg7).ofBuf v = v := rfl
theorem toBuf_arg7 (v : (⟨S3x128x64, .f32⟩ : BufTy).Contents (Elt Ideal)) :
    (TRef.of (sig := sig) (T := ⟨S3x128x64, .f32⟩) main_arg7).toBuf v = v := rfl
theorem ofBuf_v90 (v : main_v90.ty.Contents (Elt Ideal)) :
    (TRef.of (sig := sig) (T := ⟨S3x128x128, .f32⟩) main_v90).ofBuf v = v := rfl
theorem toBuf_v90 (v : (⟨S3x128x128, .f32⟩ : BufTy).Contents (Elt Ideal)) :
    (TRef.of (sig := sig) (T := ⟨S3x128x128, .f32⟩) main_v90).toBuf v = v := rfl
theorem ofBuf_c_19 (v : main_c_19.ty.Contents (Elt Ideal)) :
    (TRef.of (sig := sig) (T := ⟨S_, .i32⟩) main_c_19).ofBuf v = v := rfl
theorem toBuf_c_19 (v : (⟨S_, .i32⟩ : BufTy).Contents (Elt Ideal)) :
    (TRef.of (sig := sig) (T := ⟨S_, .i32⟩) main_c_19).toBuf v = v := rfl
theorem ofBuf_call2_v0 (v : main_call2_v0.ty.Contents (Elt Ideal)) :
    (TRef.of (sig := sig) (T := ⟨S_, .f32⟩) main_call2_v0).ofBuf v = v := rfl
theorem toBuf_call2_v0 (v : (⟨S_, .f32⟩ : BufTy).Contents (Elt Ideal)) :
    (TRef.of (sig := sig) (T := ⟨S_, .f32⟩) main_call2_v0).toBuf v = v := rfl
theorem ofBuf_arg8 (v : main_arg8.ty.Contents (Elt Ideal)) :
    (TRef.of (sig := sig) (T := ⟨S64, .f32⟩) main_arg8).ofBuf v = v := rfl
theorem toBuf_arg8 (v : (⟨S64, .f32⟩ : BufTy).Contents (Elt Ideal)) :
    (TRef.of (sig := sig) (T := ⟨S64, .f32⟩) main_arg8).toBuf v = v := rfl
theorem ofBuf_v91 (v : main_v91.ty.Contents (Elt Ideal)) :
    (TRef.of (sig := sig) (T := ⟨S128, .f32⟩) main_v91).ofBuf v = v := rfl
theorem toBuf_v91 (v : (⟨S128, .f32⟩ : BufTy).Contents (Elt Ideal)) :
    (TRef.of (sig := sig) (T := ⟨S128, .f32⟩) main_v91).toBuf v = v := rfl

end Cert.KernelIdeal.Casts

end
-- ==== Proof.Bridge.lean ====
/-
  The idealized kernel program's result is the reference's result, as functions of the argument arrays.

  Both programs compute the edges' Laplacian weights and every product with L̂ by the same host operations, and a
  Chebyshev layer from the layer's input and its two products with L̂.  Walking the kernel program's buffer contents
  from segment boundary to segment boundary: at each region's entry the buffers the region reads hold the reference's
  corresponding stages (the host stretches are the same operations of the same operands on both sides); each region's
  output array is `Cheb.layer` of them, which is the reference's layer stage; and the last stretch keeps the first 64
  columns of the third region's 128-column output, whose extra columns come from zero padding and are never read.
-/
import proofs.«133667_j64707977281780_2_alg».proof.Proof.KRegion0
import proofs.«133667_j64707977281780_2_alg».proof.Proof.KRegion1
import proofs.«133667_j64707977281780_2_alg».proof.Proof.KRegion2
import proofs.«133667_j64707977281780_2_alg».proof.Proof.RLayers
import proofs.«133667_j64707977281780_2_alg».proof.Proof.KCasts
import Idealize.ShloMosaic.Lib.StableHlo.Run
import Idealize.ShloMosaic.Lib.KernelVsHost

set_option maxRecDepth 16384

noncomputable section

open scoped BigOperators

namespace Cert.Bridge

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-! ## The argument arrays as launched -/

abbrev a0 : (⟨S50000x128, .f32⟩ : BufTy).Contents (Elt Ideal) := m ((c : Thread nD τ).loc main_arg0)
abbrev a1 : (⟨S2x1600000, .i32⟩ : BufTy).Contents (Elt Ideal) := m ((c : Thread nD τ).loc main_arg1)
abbrev a2 : (⟨S1600000, .f32⟩ : BufTy).Contents (Elt Ideal) := m ((c : Thread nD τ).loc main_arg2)
abbrev a3 : (⟨S3x128x128, .f32⟩ : BufTy).Contents (Elt Ideal) := m ((c : Thread nD τ).loc main_arg3)
abbrev a4 : (⟨S128, .f32⟩ : BufTy).Contents (Elt Ideal) := m ((c : Thread nD τ).loc main_arg4)
abbrev a5 : (⟨S3x128x128, .f32⟩ : BufTy).Contents (Elt Ideal) := m ((c : Thread nD τ).loc main_arg5)
abbrev a6 : (⟨S128, .f32⟩ : BufTy).Contents (Elt Ideal) := m ((c : Thread nD τ).loc main_arg6)
abbrev a7 : (⟨S3x128x64, .f32⟩ : BufTy).Contents (Elt Ideal) := m ((c : Thread nD τ).loc main_arg7)
abbrev a8 : (⟨S64, .f32⟩ : BufTy).Contents (Elt Ideal) := m ((c : Thread nD τ).loc main_arg8)

/-! ## At the first region's entry -/

/-- The edges' source nodes. -/
theorem W3_src : W3 m ρ c (Proc.devRef .tc main_v1) = Cert.ReferenceIdeal.Read.val_main_v1 (F := Ideal) (a1 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
/-- The edges' destination nodes. -/
theorem W3_dst : W3 m ρ c (Proc.devRef .tc main_v3) = Cert.ReferenceIdeal.Read.val_main_v3 (F := Ideal) (a1 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
/-- The edges' weights of the scaled Laplacian. -/
theorem W3_norm : W3 m ρ c (Proc.devRef .tc main_v33) = Cert.ReferenceIdeal.Read.val_main_v33 (F := Ideal) (a1 m c) (a2 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
/-- L̂ applied to the input features. -/
theorem W3_tx : W3 m ρ c (Proc.devRef .tc main_v46) = Cert.ReferenceIdeal.Read.val_main_v49 (F := Ideal) (a0 m c) (a1 m c) (a2 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
/-- L̂ applied twice. -/
theorem W3_s2 : W3 m ρ c (Proc.devRef .tc main_v59) = Cert.ReferenceIdeal.Read.val_main_v66 (F := Ideal) (a0 m c) (a1 m c) (a2 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
/-- The first bias as a row. -/
theorem W3_b : W3 m ρ c (Proc.devRef .tc main_v60) = shapeCast S1x128 (a4 m c) shapeCasts_S128_S1x128 := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
theorem W3_x : W3 m ρ c (Proc.devRef .tc main_arg0) = (a0 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
theorem W3_w : W3 m ρ c (Proc.devRef .tc main_arg3) = (a3 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
theorem W3_a5 : W3 m ρ c (Proc.devRef .tc main_arg5) = (a5 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
theorem W3_a6 : W3 m ρ c (Proc.devRef .tc main_arg6) = (a6 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
theorem W3_a7 : W3 m ρ c (Proc.devRef .tc main_arg7) = (a7 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl
theorem W3_a8 : W3 m ρ c (Proc.devRef .tc main_arg8) = (a8 m c) := by
  dsimp only [W3, W2, W1, hostOps0, hostOps0_1, hostOps0_2]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  all_goals rfl

/-! ## After the first region -/

/-- The first region's output array is the reference's first layer. -/
theorem W4_out : W4 m ρ c (Proc.devRef .tc main_v61) = Cert.ReferenceIdeal.Read.val_main_v82 (F := Ideal) (a0 m c) (a1 m c) (a2 m c) (a3 m c) (a4 m c) := by
  refine (W4_arr m ρ c 5).trans ((Cert.KernelIdeal.Region0.final (V3 m ρ) c).trans ?_)
  rw [Cert.ReferenceIdeal.Layers.layer1_eq]
  show Cheb.layer (n := 50000) (d := 128) (W3 m ρ c (Proc.devRef .tc main_arg0)) (W3 m ρ c (Proc.devRef .tc main_v46)) (W3 m ρ c (Proc.devRef .tc main_v59)) (W3 m ρ c (Proc.devRef .tc main_arg3)) (fun j => W3 m ρ c (Proc.devRef .tc main_v60) (ix2 (0 : Fin 1) j)) = _
  rw [W3_x m ρ c, W3_tx m ρ c, W3_s2 m ρ c, W3_w m ρ c, W3_b m ρ c]
  refine congrArg (Cheb.layer (n := 50000) (d := 128) _ _ _ _) (funext fun j => ?_)
  exact (shapeCast_apply (a4 m c) shapeCasts_S128_S1x128 (ix2 (0 : Fin 1) j) (ix1 j)
    (by rewrite [Shape.rowMajor_val_one, Shape.rowMajor_val_two]; show j.val = 0 * 128 + j.val; omega))
theorem W4_src : W4 m ρ c (Proc.devRef .tc main_v1) = Cert.ReferenceIdeal.Read.val_main_v1 (F := Ideal) (a1 m c) := (W4_of_ne m ρ c main_v1 (by decide)).trans (W3_src m ρ c)
theorem W4_dst : W4 m ρ c (Proc.devRef .tc main_v3) = Cert.ReferenceIdeal.Read.val_main_v3 (F := Ideal) (a1 m c) := (W4_of_ne m ρ c main_v3 (by decide)).trans (W3_dst m ρ c)
theorem W4_norm : W4 m ρ c (Proc.devRef .tc main_v33) = Cert.ReferenceIdeal.Read.val_main_v33 (F := Ideal) (a1 m c) (a2 m c) := (W4_of_ne m ρ c main_v33 (by decide)).trans (W3_norm m ρ c)
theorem W4_a5 : W4 m ρ c (Proc.devRef .tc main_arg5) = (a5 m c) := (W4_of_ne m ρ c main_arg5 (by decide)).trans (W3_a5 m ρ c)
theorem W4_a6 : W4 m ρ c (Proc.devRef .tc main_arg6) = (a6 m c) := (W4_of_ne m ρ c main_arg6 (by decide)).trans (W3_a6 m ρ c)
theorem W4_a7 : W4 m ρ c (Proc.devRef .tc main_arg7) = (a7 m c) := (W4_of_ne m ρ c main_arg7 (by decide)).trans (W3_a7 m ρ c)
theorem W4_a8 : W4 m ρ c (Proc.devRef .tc main_arg8) = (a8 m c) := (W4_of_ne m ρ c main_arg8 (by decide)).trans (W3_a8 m ρ c)

/-! ## At the second region's entry -/

theorem W5_src : W5 m ρ c (Proc.devRef .tc main_v1) = Cert.ReferenceIdeal.Read.val_main_v1 (F := Ideal) (a1 m c) := by
  show StableHlo.after hostOps1 (W4 m ρ c) _ = _
  dsimp only [hostOps1]
  after_results_simp
  exact W4_src m ρ c
theorem W5_dst : W5 m ρ c (Proc.devRef .tc main_v3) = Cert.ReferenceIdeal.Read.val_main_v3 (F := Ideal) (a1 m c) := by
  show StableHlo.after hostOps1 (W4 m ρ c) _ = _
  dsimp only [hostOps1]
  after_results_simp
  exact W4_dst m ρ c
theorem W5_norm : W5 m ρ c (Proc.devRef .tc main_v33) = Cert.ReferenceIdeal.Read.val_main_v33 (F := Ideal) (a1 m c) (a2 m c) := by
  show StableHlo.after hostOps1 (W4 m ρ c) _ = _
  dsimp only [hostOps1]
  after_results_simp
  exact W4_norm m ρ c
theorem W5_a7 : W5 m ρ c (Proc.devRef .tc main_arg7) = (a7 m c) := by
  show StableHlo.after hostOps1 (W4 m ρ c) _ = _
  dsimp only [hostOps1]
  after_results_simp
  exact W4_a7 m ρ c
theorem W5_a8 : W5 m ρ c (Proc.devRef .tc main_arg8) = (a8 m c) := by
  show StableHlo.after hostOps1 (W4 m ρ c) _ = _
  dsimp only [hostOps1]
  after_results_simp
  exact W4_a8 m ρ c
theorem W5_x : W5 m ρ c (Proc.devRef .tc main_v61) = Cert.ReferenceIdeal.Read.val_main_v82 (F := Ideal) (a0 m c) (a1 m c) (a2 m c) (a3 m c) (a4 m c) := by
  show StableHlo.after hostOps1 (W4 m ρ c) _ = _
  dsimp only [hostOps1]
  after_results_simp
  exact W4_out m ρ c
theorem W5_w : W5 m ρ c (Proc.devRef .tc main_arg5) = (a5 m c) := by
  show StableHlo.after hostOps1 (W4 m ρ c) _ = _
  dsimp only [hostOps1]
  after_results_simp
  exact W4_a5 m ρ c
/-- L̂ applied to the first layer's output. -/
theorem W5_tx : W5 m ρ c (Proc.devRef .tc main_v74) = Cert.ReferenceIdeal.Read.val_main_v98 (F := Ideal) (a0 m c) (a1 m c) (a2 m c) (a3 m c) (a4 m c) := by
  show StableHlo.after hostOps1 (W4 m ρ c) _ = _
  dsimp only [hostOps1]
  after_results_simp
  rw [W4_norm m ρ c, W4_src m ρ c, W4_dst m ρ c, W4_out m ρ c]
  all_goals rfl
/-- L̂ applied twice. -/
theorem W5_s2 : W5 m ρ c (Proc.devRef .tc main_v87) = Cert.ReferenceIdeal.Read.val_main_v115 (F := Ideal) (a0 m c) (a1 m c) (a2 m c) (a3 m c) (a4 m c) := by
  show StableHlo.after hostOps1 (W4 m ρ c) _ = _
  dsimp only [hostOps1]
  after_results_simp
  rw [W4_norm m ρ c, W4_src m ρ c, W4_dst m ρ c, W4_out m ρ c]
  all_goals rfl
/-- The second bias as a row. -/
theorem W5_b : W5 m ρ c (Proc.devRef .tc main_v88) = shapeCast S1x128 (a6 m c) shapeCasts_S128_S1x128 := by
  show StableHlo.after hostOps1 (W4 m ρ c) _ = _
  dsimp only [hostOps1]
  after_results_simp
  rw [W4_a6 m ρ c]
  all_goals rfl

/-! ## After the second region -/

/-- The second region's output array is the reference's second layer. -/
theorem W6_out : W6 m ρ c (Proc.devRef .tc main_v89) = Cert.ReferenceIdeal.Read.val_main_v131 (F := Ideal) (a0 m c) (a1 m c) (a2 m c) (a3 m c) (a4 m c) (a5 m c) (a6 m c) := by
  refine (W6_arr m ρ c 5).trans ((Cert.KernelIdeal.Region1.final (V5 m ρ) c).trans ?_)
  rw [Cert.ReferenceIdeal.Layers.layer2_eq]
  show Cheb.layer (n := 50000) (d := 128) (W5 m ρ c (Proc.devRef .tc main_v61)) (W5 m ρ c (Proc.devRef .tc main_v74)) (W5 m ρ c (Proc.devRef .tc main_v87)) (W5 m ρ c (Proc.devRef .tc main_arg5)) (fun j => W5 m ρ c (Proc.devRef .tc main_v88) (ix2 (0 : Fin 1) j)) = _
  rw [W5_x m ρ c, W5_tx m ρ c, W5_s2 m ρ c, W5_w m ρ c, W5_b m ρ c]
  refine congrArg (Cheb.layer (n := 50000) (d := 128) _ _ _ _) (funext fun j => ?_)
  exact (shapeCast_apply (a6 m c) shapeCasts_S128_S1x128 (ix2 (0 : Fin 1) j) (ix1 j)
    (by rewrite [Shape.rowMajor_val_one, Shape.rowMajor_val_two]; show j.val = 0 * 128 + j.val; omega))
theorem W6_src : W6 m ρ c (Proc.devRef .tc main_v1) = Cert.ReferenceIdeal.Read.val_main_v1 (F := Ideal) (a1 m c) := (W6_of_ne m ρ c main_v1 (by decide)).trans (W5_src m ρ c)
theorem W6_dst : W6 m ρ c (Proc.devRef .tc main_v3) = Cert.ReferenceIdeal.Read.val_main_v3 (F := Ideal) (a1 m c) := (W6_of_ne m ρ c main_v3 (by decide)).trans (W5_dst m ρ c)
theorem W6_norm : W6 m ρ c (Proc.devRef .tc main_v33) = Cert.ReferenceIdeal.Read.val_main_v33 (F := Ideal) (a1 m c) (a2 m c) := (W6_of_ne m ρ c main_v33 (by decide)).trans (W5_norm m ρ c)
theorem W6_a7 : W6 m ρ c (Proc.devRef .tc main_arg7) = (a7 m c) := (W6_of_ne m ρ c main_arg7 (by decide)).trans (W5_a7 m ρ c)
theorem W6_a8 : W6 m ρ c (Proc.devRef .tc main_arg8) = (a8 m c) := (W6_of_ne m ρ c main_arg8 (by decide)).trans (W5_a8 m ρ c)

/-! ## At the third region's entry -/

theorem W11_x : W11 m ρ c (Proc.devRef .tc main_v89) = Cert.ReferenceIdeal.Read.val_main_v131 (F := Ideal) (a0 m c) (a1 m c) (a2 m c) (a3 m c) (a4 m c) (a5 m c) (a6 m c) := by
  show StableHlo.after hostOps2_4 (StableHlo.after hostOps2_3 (StableHlo.after hostOps2_2 (StableHlo.after hostOps2_1 (StableHlo.after hostOps2 (W6 m ρ c))))) _ = _
  dsimp only [hostOps2, hostOps2_1, hostOps2_2, hostOps2_3, hostOps2_4]
  after_results_simp
  exact W6_out m ρ c
/-- L̂ applied to the second layer's output. -/
theorem W11_tx : W11 m ρ c (Proc.devRef .tc main_v104) = Cert.ReferenceIdeal.Read.val_main_v147 (F := Ideal) (a0 m c) (a1 m c) (a2 m c) (a3 m c) (a4 m c) (a5 m c) (a6 m c) := by
  show StableHlo.after hostOps2_4 (StableHlo.after hostOps2_3 (StableHlo.after hostOps2_2 (StableHlo.after hostOps2_1 (StableHlo.after hostOps2 (W6 m ρ c))))) _ = _
  dsimp only [hostOps2, hostOps2_1, hostOps2_2, hostOps2_3, hostOps2_4]
  after_results_simp
  rw [W6_norm m ρ c, W6_src m ρ c, W6_dst m ρ c, W6_out m ρ c]
  all_goals rfl
/-- L̂ applied twice. -/
theorem W11_s2 : W11 m ρ c (Proc.devRef .tc main_v117) = Cert.ReferenceIdeal.Read.val_main_v164 (F := Ideal) (a0 m c) (a1 m c) (a2 m c) (a3 m c) (a4 m c) (a5 m c) (a6 m c) := by
  show StableHlo.after hostOps2_4 (StableHlo.after hostOps2_3 (StableHlo.after hostOps2_2 (StableHlo.after hostOps2_1 (StableHlo.after hostOps2 (W6 m ρ c))))) _ = _
  dsimp only [hostOps2, hostOps2_1, hostOps2_2, hostOps2_3, hostOps2_4]
  after_results_simp
  rw [W6_norm m ρ c, W6_src m ρ c, W6_dst m ρ c, W6_out m ρ c]
  all_goals rfl
/-- The third weight stack, 64 zero columns appended to each matrix. -/
theorem W11_w : W11 m ρ c (Proc.devRef .tc main_v90) = pad S3x128x128 ![0, 0, 0] ![0, 0, 64] ![0, 0, 0] (a7 m c) (sitofp (F := Ideal) .f32 (constantI S_ 32 0#32)) pads_S3x128x64_S3x128x128_000_000_0640 h_S_ := by
  show StableHlo.after hostOps2_4 (StableHlo.after hostOps2_3 (StableHlo.after hostOps2_2 (StableHlo.after hostOps2_1 (StableHlo.after hostOps2 (W6 m ρ c))))) _ = _
  dsimp only [hostOps2, hostOps2_1, hostOps2_2, hostOps2_3, hostOps2_4]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  rw [W6_a7 m ρ c]
  all_goals rfl
/-- The third bias, 64 zeros appended, as a row. -/
theorem W11_b : W11 m ρ c (Proc.devRef .tc main_v118) = shapeCast S1x128 (pad S128 ![0] ![64] ![0] (a8 m c) (sitofp (F := Ideal) .f32 (constantI S_ 32 0#32)) pads_S64_S128_0640 h_S_) shapeCasts_S128_S1x128 := by
  show StableHlo.after hostOps2_4 (StableHlo.after hostOps2_3 (StableHlo.after hostOps2_2 (StableHlo.after hostOps2_1 (StableHlo.after hostOps2 (W6 m ρ c))))) _ = _
  dsimp only [hostOps2, hostOps2_1, hostOps2_2, hostOps2_3, hostOps2_4]
  after_results_simp
  repeat (first | rw [Cert.KernelIdeal.Casts.ofBuf_cst_2] | rw [Cert.KernelIdeal.Casts.toBuf_cst_2] | rw [Cert.KernelIdeal.Casts.ofBuf_call0_v0] | rw [Cert.KernelIdeal.Casts.toBuf_call0_v0] | rw [Cert.KernelIdeal.Casts.ofBuf_call0_v1] | rw [Cert.KernelIdeal.Casts.toBuf_call0_v1] | rw [Cert.KernelIdeal.Casts.ofBuf_v12] | rw [Cert.KernelIdeal.Casts.toBuf_v12] | rw [Cert.KernelIdeal.Casts.ofBuf_v15] | rw [Cert.KernelIdeal.Casts.toBuf_v15] | rw [Cert.KernelIdeal.Casts.ofBuf_v16] | rw [Cert.KernelIdeal.Casts.toBuf_v16] | rw [Cert.KernelIdeal.Casts.ofBuf_c_18] | rw [Cert.KernelIdeal.Casts.toBuf_c_18] | rw [Cert.KernelIdeal.Casts.ofBuf_call1_v0] | rw [Cert.KernelIdeal.Casts.toBuf_call1_v0] | rw [Cert.KernelIdeal.Casts.ofBuf_arg7] | rw [Cert.KernelIdeal.Casts.toBuf_arg7] | rw [Cert.KernelIdeal.Casts.ofBuf_v90] | rw [Cert.KernelIdeal.Casts.toBuf_v90] | rw [Cert.KernelIdeal.Casts.ofBuf_c_19] | rw [Cert.KernelIdeal.Casts.toBuf_c_19] | rw [Cert.KernelIdeal.Casts.ofBuf_call2_v0] | rw [Cert.KernelIdeal.Casts.toBuf_call2_v0] | rw [Cert.KernelIdeal.Casts.ofBuf_arg8] | rw [Cert.KernelIdeal.Casts.toBuf_arg8] | rw [Cert.KernelIdeal.Casts.ofBuf_v91] | rw [Cert.KernelIdeal.Casts.toBuf_v91])
  rw [W6_a8 m ρ c]
  all_goals rfl

/-! ## The result

The third region runs with 128 output columns: the third weight stack and bias with 64 zero columns appended.  The
result keeps columns 0 … 63 of its output.  An entry of a layer reads only its own column of each weight matrix and
its own entry of the bias, and below column 64 the padded stack and bias are the unpadded ones; so each kept entry is
the entry of the layer of width 64. -/

/-- The padded weight stack below column 64 is the weight stack. -/
theorem padW_apply (s : Fin 3) (k : Fin 128) (j : Fin 64) (j' : Fin 128) (hj : j'.val = j.val) :
    (pad S3x128x128 ![0, 0, 0] ![0, 0, 64] ![0, 0, 0] (a7 m c) (sitofp (F := Ideal) .f32 (constantI S_ 32 0#32)) pads_S3x128x64_S3x128x128_000_000_0640 h_S_) (ix3 s k j') = (a7 m c) (ix3 s k j) :=
  pad_apply_of_inside ![0, 0, 0] ![0, 0, 64] ![0, 0, 0] (a7 m c) _ pads_S3x128x64_S3x128x128_000_000_0640 h_S_ (ix3 s k j') (ix3 s k j)
    (fun a => match a with
      | ⟨0, _⟩ => by show s.val = 0 + s.val * (0 + 1); omega
      | ⟨1, _⟩ => by show k.val = 0 + k.val * (0 + 1); omega
      | ⟨2, _⟩ => by show j'.val = 0 + j.val * (0 + 1); omega)

/-- The padded bias, as a row, below column 64 is the bias. -/
theorem padB_apply (j : Fin 64) (j' : Fin 128) (hj : j'.val = j.val) :
    shapeCast S1x128 (pad S128 ![0] ![64] ![0] (a8 m c) (sitofp (F := Ideal) .f32 (constantI S_ 32 0#32)) pads_S64_S128_0640 h_S_) shapeCasts_S128_S1x128 (ix2 (0 : Fin 1) j') = (a8 m c) (ix1 j) :=
  (shapeCast_apply (pad S128 ![0] ![64] ![0] (a8 m c) (sitofp (F := Ideal) .f32 (constantI S_ 32 0#32)) pads_S64_S128_0640 h_S_) shapeCasts_S128_S1x128 (ix2 (0 : Fin 1) j') (ix1 j')
    (by rewrite [Shape.rowMajor_val_one, Shape.rowMajor_val_two]; show j'.val = 0 * 128 + j'.val; omega)).trans
  (pad_apply_of_inside ![0] ![64] ![0] (a8 m c) _ pads_S64_S128_0640 h_S_ (ix1 j') (ix1 j)
    (fun a => match a with
      | ⟨0, _⟩ => by show j'.val = 0 + j.val * (0 + 1); omega))

/-- THE RESULT of the idealized kernel program is the reference's result stage, as functions of the argument arrays. -/
theorem result_eq : W13 m ρ c (Proc.devRef .tc main_v120) = Cert.ReferenceIdeal.Read.val_main_v180 (F := Ideal) (a0 m c) (a1 m c) (a2 m c) (a3 m c) (a4 m c) (a5 m c) (a6 m c) (a7 m c) (a8 m c) := by
  show StableHlo.after hostOps3 (W12 m ρ c) _ = _
  dsimp only [hostOps3]
  after_results_simp
  rw [show W12 m ρ c (Proc.devRef .tc main_v119) = Cert.KernelIdeal.Region2.G (V11 m ρ) c
        from (W12_arr m ρ c 5).trans (Cert.KernelIdeal.Region2.final (V11 m ρ) c),
      Cert.ReferenceIdeal.Layers.layer3_eq]
  funext i
  have h0 : (i 0).val < 50000 := (i 0).isLt
  have h1 : (i 1).val < 64 := (i 1).isLt
  refine (extractStridedSlice_apply ![0, 0] _ slices_S50000x128_S50000x64_0_0 i
    (ix2 (i 0) (⟨(i 1).val, by omega⟩ : Fin 128)) (fun a => match a with
      | ⟨0, _⟩ => by show (i 0).val = 0 + (i 0).val; omega
      | ⟨1, _⟩ => by show (i 1).val = 0 + (i 1).val; omega)).trans ?_
  unfold Cert.KernelIdeal.Region2.G Cheb.layer
  refine Cheb.entry_congr (fun k => ?_) (fun k => ?_) (fun k => ?_) (fun k => ?_) (fun k => ?_) (fun k => ?_) ?_
  · exact congrFun (W11_x m ρ c) _
  · exact congrFun (W11_tx m ρ c) _
  · exact congrFun (W11_s2 m ρ c) _
  · exact (congrFun (W11_w m ρ c) _).trans (padW_apply m c 0 k (i 1) _ rfl)
  · exact (congrFun (W11_w m ρ c) _).trans (padW_apply m c 1 k (i 1) _ rfl)
  · exact (congrFun (W11_w m ρ c) _).trans (padW_apply m c 2 k (i 1) _ rfl)
  · exact (congrFun (W11_b m ρ c) _).trans (padB_apply m c (i 1) _ rfl)

end Cert.Bridge

end
-- ==== Proof.lean ====
/-
  Three stacked Chebyshev graph-convolution layers (three terms each) with logistic activations, computed two ways.

  With L̂ the scaled graph Laplacian built from the edge list and the edge weights, a layer maps node features `x` to
      σ( x·W₀ + (L̂x)·W₁ + (2·L̂(L̂x) − x)·W₂ + b ).
  The reference computes all of it with array operations.  The kernel program computes L̂'s edge weights and every
  product with L̂ by the same array operations, and the rest of each layer — the recurrence 2·L̂(L̂x) − x, the three
  matrix products, the bias, σ — in a kernel that walks the nodes in ten blocks of 5000 rows; for the third layer it
  appends 64 zero columns to the weights and the bias, runs the kernel at width 128 and keeps the first 64 columns.

  On the extended reals the two results are equal entry by entry, with no condition on the inputs beyond the claim's
  own: the narrowing of the kernel's matrix-product operands is the identity; each matrix product is the same sum over
  the 128 input features on both sides, grouped the same way; σ is one operation in the kernel and the quotient
  1 / (1 + e^(−z)) in the reference, which is σ's definition, infinities included; and an output entry reads only its own
  column of the weights and its own bias entry, so the appended zero columns never reach a kept entry.  No law of
  arithmetic that could fail at an infinity is used.

  The modules: `ChebEntry` (one entry of a layer, and the logistic quotient), `KBlockOps` / `KPayload` (what a grid point
  stores, entry by entry), `KRegion0..2` (each region's output array is a layer of its input arrays), `KRun` (the kernel
  program's run with its result named), `RLayers` (the reference's layers), `Bridge` (the two results as one function of
  the argument arrays).  The kernel's conversion to the narrower float format is not rewritten by the idealization,
  so there is nothing to preserve beyond the program's own text.
-/
import proofs.«133667_j64707977281780_2_alg».proof.Defs
import proofs.«133667_j64707977281780_2_alg».proof.Proof.Gen.Kernel
import proofs.«133667_j64707977281780_2_alg».proof.Proof.Gen.Kernel.Skeleton
import proofs.«133667_j64707977281780_2_alg».proof.Proof.Gen.Kernel.Launch
import proofs.«133667_j64707977281780_2_alg».proof.Proof.Gen.Kernel.Points
import proofs.«133667_j64707977281780_2_alg».proof.Proof.Gen.Kernel.Frame
import proofs.«133667_j64707977281780_2_alg».proof.Proof.Gen.KernelIdeal
import proofs.«133667_j64707977281780_2_alg».proof.Proof.Gen.KernelIdeal.Skeleton
import proofs.«133667_j64707977281780_2_alg».proof.Proof.Gen.KernelIdeal.Launch
import proofs.«133667_j64707977281780_2_alg».proof.Proof.Gen.KernelIdeal.Points
import proofs.«133667_j64707977281780_2_alg».proof.Proof.Gen.KernelIdeal.Frame
import proofs.«133667_j64707977281780_2_alg».proof.Proof.Gen.ReferenceIdeal
import proofs.«133667_j64707977281780_2_alg».proof.Proof.Gen.ReferenceIdeal.Run
import proofs.«133667_j64707977281780_2_alg».proof.Proof.Gen.ReferenceIdeal.Read
import proofs.«133667_j64707977281780_2_alg».proof.Proof.Gen.Pre_finite_inputs
import proofs.«133667_j64707977281780_2_alg».proof.Proof.KRun
import proofs.«133667_j64707977281780_2_alg».proof.Proof.Bridge
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's result stage of the kernel
    program's argument arrays: the kernel program by its run and the bridge, the reference by its run, its arguments
    being the kernel program's. -/
theorem algebraic : Cert.algebraic_KernelIdeal_ReferenceIdeal := by
  intro m ρ m' ρ' _ hagree
  refine ⟨fun c => Cert.ReferenceIdeal.Read.val_main_v180 (F := Ideal) (Cert.Bridge.a0 m c) (Cert.Bridge.a1 m c) (Cert.Bridge.a2 m c)
      (Cert.Bridge.a3 m c) (Cert.Bridge.a4 m c) (Cert.Bridge.a5 m c) (Cert.Bridge.a6 m c) (Cert.Bridge.a7 m c) (Cert.Bridge.a8 m c), ?_, ?_⟩
  · exact (θ_run Cert.KernelIdeal.defs _ _).mono
      (fun _ h c => ⟨(h c).1.trans (Cert.Bridge.result_eq m ρ c), (h c).2⟩) (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v180_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
